-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x32000 : Shape := ⟨3, ![64, 32, 32000]⟩
abbrev S64x32 : Shape := ⟨2, ![64, 32]⟩
abbrev S_ : Shape := ⟨0, ![]⟩

class Facts : Prop where
  bcast_S_S64x32x32000 : S_.BroadcastsInDim S64x32x32000 (![] : Fin 0 → Fin S64x32x32000.rank)
  reducesTo_S64x32x32000_S_d0_1_2 : S64x32x32000.ReducesTo [0, 1, 2] S_
  h_S_ : 0 < S_.numel
  bcast_S_S64x32 : S_.BroadcastsInDim S64x32 (![] : Fin 0 → Fin S64x32.rank)
  reducesTo_S64x32_S_d0_1 : S64x32.ReducesTo [0, 1] S_

variable [Facts]

def fn {F : FTy → Type} [FloatOps F] (main_arg0 : FVec F S64x32x32000 .f32) (main_arg1 : IVec S64x32 32) (main_arg2 : FVec F S64x32 .f32) : IVec S_ 1 :=
  let main_v0 : FVec F S64x32x32000 .f32 := Host.absf main_arg0
  let main_cst : FVec F S_ .f32 := constant S_ .f32 0x7F800000#32
  let main_v1 : FVec F S64x32x32000 .f32 := broadcastInDim S64x32x32000 ![] bcast_S_S64x32x32000 main_cst
  let main_v2 : IVec S64x32x32000 1 := cmpf .olt main_v0 main_v1
  let main_c : IVec S_ 1 := constantI S_ 1 1#1
  let main_v3 : IVec S_ 1 := (fun x v => Host.reduce IntOp.andi x v reducesTo_S64x32x32000_S_d0_1_2 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  main_v8
-- ==== Kernel.lean ====
abbrev S64x32x32000 : Shape := ⟨3, ![64, 32, 32000]⟩
abbrev S64x32 : Shape := ⟨2, ![64, 32]⟩
abbrev S2048x32000 : Shape := ⟨2, ![2048, 32000]⟩
abbrev S2048x1 : Shape := ⟨2, ![2048, 1]⟩
abbrev S_ : Shape := ⟨0, ![]⟩
abbrev S2048x1x1 : Shape := ⟨3, ![2048, 1, 1]⟩
abbrev S1 : Shape := ⟨1, ![1]⟩
abbrev S1x1x1 : Shape := ⟨3, ![1, 1, 1]⟩
abbrev S256x6400 : Shape := ⟨2, ![256, 6400]⟩
abbrev S256x1 : Shape := ⟨2, ![256, 1]⟩
abbrev S256 : Shape := ⟨1, ![256]⟩

abbrev nBuf : Space → Nat
  | .hbm => 33
  | .vmem => 10
  | .smem => 0
  | _ => 0

abbrev bufTy : (tb : Table) → Fin (tcTables nBuf tb) → BufTy
  | .hbm, ⟨0, _⟩ => ⟨S64x32x32000, .f32⟩
  | .hbm, ⟨1, _⟩ => ⟨S64x32, .i32⟩
  | .hbm, ⟨2, _⟩ => ⟨S64x32, .f32⟩
  | .hbm, ⟨3, _⟩ => ⟨S2048x32000, .f32⟩
  | .hbm, ⟨4, _⟩ => ⟨S2048x1, .i32⟩
  | .hbm, ⟨5, _⟩ => ⟨S2048x1, .f32⟩
  | .hbm, ⟨6, _⟩ => ⟨S_, .i32⟩
  | .hbm, ⟨7, _⟩ => ⟨S2048x1, .i32⟩
  | .hbm, ⟨8, _⟩ => ⟨S2048x1, .i1⟩
  | .hbm, ⟨9, _⟩ => ⟨S_, .i32⟩
  | .hbm, ⟨10, _⟩ => ⟨S2048x1, .i32⟩
  | .hbm, ⟨11, _⟩ => ⟨S2048x1, .i32⟩
  | .hbm, ⟨12, _⟩ => ⟨S2048x1, .i32⟩
  | .hbm, ⟨13, _⟩ => ⟨S2048x1x1, .i32⟩
  | .hbm, ⟨14, _⟩ => ⟨S1, .i32⟩
  | .hbm, ⟨15, _⟩ => ⟨S_, .i32⟩
  | .hbm, ⟨16, _⟩ => ⟨S2048x1x1, .i32⟩
  | .hbm, ⟨17, _⟩ => ⟨S2048x1x1, .i1⟩
  | .hbm, ⟨18, _⟩ => ⟨S1x1x1, .i32⟩
  | .hbm, ⟨19, _⟩ => ⟨S2048x1x1, .i32⟩
  | .hbm, ⟨20, _⟩ => ⟨S2048x1x1, .i1⟩
  | .hbm, ⟨21, _⟩ => ⟨S2048x1x1, .i1⟩
  | .hbm, ⟨22, _⟩ => ⟨S_, .i1⟩
  | .hbm, ⟨23, _⟩ => ⟨S2048x1, .i1⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S256x6400, .f32⟩
  | .local _ .vmem, ⟨1, _⟩ => ⟨S256x6400, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | _, _ => ⟨S64x32x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v3 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v26 : BitVec 1 := Scalar.cmpi .eq arg1 c4_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64x32x32000_S2048x32000 : S64x32x32000.ShapeCasts S2048x32000
  shapeCasts_S64x32_S2048x1 : S64x32.ShapeCasts S2048x1
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  h_S_ : 0 < S_.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x6400_S256x6400_0_0 : ∀ a, (![0, 0] : Fin 2 → Nat) a + S256x6400.size a ≤ S256x6400.size a
  h_S256x6400 : 0 < S256x6400.numel
  shapeCasts_S256x6400_S256x6400 : S256x6400.ShapeCasts S256x6400
  reduces_S256x6400_S256 : S256x6400.Reduces [1] S256
  shapeCasts_S256_S256x1 : S256.ShapeCasts S256x1
  broadcasts_S256x1_S256x6400 : S256x1.Broadcasts S256x6400
  reducesTo_S2048x1_S_d0_1 : S2048x1.ReducesTo [0, 1] S_
  gather_S2048x32000_S2048x1x1_S2048x1_n_1_0_0_1_2_11_wf : GatherDims.WF S2048x32000 S2048x1x1 S2048x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6400.size a ≤ S2048x32000.size a
  hwx0_0 : ∀ i : grid0.Coords, EltTy.bits .f32 = 32 ∨ (Rect.block (s := S2048x32000) S256x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .f32 = 32 ∨ (Rect.block (s := S2048x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S2048x1.size a
  hwx0_3 : ∀ i : grid0.Coords, EltTy.bits .f32 = 32 ∨ (Rect.block (s := S2048x1) S256x1.size (cc0_transform_3 i) (hinb0_3 i)).WholeWords (EltTy.packing .f32)

variable [Facts₀]

def gather_S2048x32000_S2048x1x1_S2048x1_n_1_0_0_1_2_11 : GatherDims S2048x32000 S2048x1x1 S2048x1 where
  offsetDims := []
  collapsedSliceDims := [1]
  operandBatchingDims := [0]
  startIndicesBatchingDims := [0]
  startIndexMap := [1]
  indexVectorDim := 2
  sliceSizes := ![1, 1]
  wf := gather_S2048x32000_S2048x1x1_S2048x1_n_1_0_0_1_2_11_wf

abbrev win0_0 : Pipeline.Window sig grid0 :=
  Pipeline.Window.ofSpec (Memref.whole main_v0) S256x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x32x32000 : Shape := ⟨3, ![64, 32, 32000]⟩
abbrev S64x32 : Shape := ⟨2, ![64, 32]⟩
abbrev S_ : Shape := ⟨0, ![]⟩
abbrev S64x32x1 : Shape := ⟨3, ![64, 32, 1]⟩
abbrev S64x32x1x1 : Shape := ⟨4, ![64, 32, 1, 1]⟩
abbrev S1 : Shape := ⟨1, ![1]⟩
abbrev S1x1x1x1 : Shape := ⟨4, ![1, 1, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S64x32x32000, .f32⟩
  | .hbm, ⟨1, _⟩ => ⟨S64x32, .i32⟩
  | .hbm, ⟨2, _⟩ => ⟨S64x32, .f32⟩
  | .hbm, ⟨3, _⟩ => ⟨S_, .f32⟩
  | .hbm, ⟨4, _⟩ => ⟨S64x32, .f32⟩
  | .hbm, ⟨5, _⟩ => ⟨S_, .f32⟩
  | .hbm, ⟨6, _⟩ => ⟨S64x32, .f32⟩
  | .hbm, ⟨7, _⟩ => ⟨S64x32, .f32⟩
  | .hbm, ⟨8, _⟩ => ⟨S64x32x1, .f32⟩
  | .hbm, ⟨9, _⟩ => ⟨S64x32x32000, .f32⟩
  | .hbm, ⟨10, _⟩ => ⟨S64x32x32000, .f32⟩
  | .hbm, ⟨11, _⟩ => ⟨S64x32x32000, .f32⟩
  | .hbm, ⟨12, _⟩ => ⟨S_, .f32⟩
  | .hbm, ⟨13, _⟩ => ⟨S64x32, .f32⟩
  | .hbm, ⟨14, _⟩ => ⟨S64x32x1, .f32⟩
  | .hbm, ⟨15, _⟩ => ⟨S64x32x1, .f32⟩
  | .hbm, ⟨16, _⟩ => ⟨S64x32x32000, .f32⟩
  | .hbm, ⟨17, _⟩ => ⟨S64x32x32000, .f32⟩
  | .hbm, ⟨18, _⟩ => ⟨S64x32x1, .i32⟩
  | .hbm, ⟨19, _⟩ => ⟨S_, .i32⟩
  | .hbm, ⟨20, _⟩ => ⟨S64x32x1, .i32⟩
  | .hbm, ⟨21, _⟩ => ⟨S64x32x1, .i1⟩
  | .hbm, ⟨22, _⟩ => ⟨S_, .i32⟩
  | .hbm, ⟨23, _⟩ => ⟨S64x32x1, .i32⟩
  | .hbm, ⟨24, _⟩ => ⟨S64x32x1, .i32⟩
  | .hbm, ⟨25, _⟩ => ⟨S64x32x1, .i32⟩
  | .hbm, ⟨26, _⟩ => ⟨S64x32x1x1, .i32⟩
  | .hbm, ⟨27, _⟩ => ⟨S1, .i32⟩
  | .hbm, ⟨28, _⟩ => ⟨S_, .i32⟩
  | .hbm, ⟨29, _⟩ => ⟨S64x32x1x1, .i32⟩
  | .hbm, ⟨30, _⟩ => ⟨S64x32x1x1, .i1⟩
  | .hbm, ⟨31, _⟩ => ⟨S1x1x1x1, .i32⟩
  | .hbm, ⟨32, _⟩ => ⟨S64x32x1x1, .i32⟩
  | .hbm, ⟨33, _⟩ => ⟨S64x32x1x1, .i1⟩
  | .hbm, ⟨34, _⟩ => ⟨S64x32x1x1, .i1⟩
  | .hbm, ⟨35, _⟩ => ⟨S_, .i1⟩
  | .hbm, ⟨36, _⟩ => ⟨S64x32x1, .i1⟩
  | .hbm, ⟨37, _⟩ => ⟨S64x32x1, .f32⟩
  | .hbm, ⟨38, _⟩ => ⟨S_, .f32⟩
  | .hbm, ⟨39, _⟩ => ⟨S64x32x1, .f32⟩
  | .hbm, ⟨40, _⟩ => ⟨S64x32x1, .f32⟩
  | .hbm, ⟨41, _⟩ => ⟨S64x32, .f32⟩
  | .hbm, ⟨42, _⟩ => ⟨S64x32, .f32⟩
  | .hbm, ⟨43, _⟩ => ⟨S64x32, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S64x32x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_cst : Ref sig .tc := ⟨.hbm, 44, rfl⟩
abbrev main_v6 : Ref sig .tc := ⟨.hbm, 45, rfl⟩
abbrev main_cst_0 : Ref sig .tc := ⟨.hbm, 46, rfl⟩
abbrev main_v7 : Ref sig .tc := ⟨.hbm, 47, rfl⟩

abbrev nD : Nat := 1
abbrev τ : Topo := Topo.v7x

variable {F : FTy → Type} [FloatOps F]

class Facts₀ : Prop where
  reducesTo_S64x32x32000_S64x32_d2 : S64x32x32000.ReducesTo [2] S64x32
  h_S_ : 0 < S_.numel
  bcast_S_S64x32 : S_.BroadcastsInDim S64x32 (![] : Fin 0 → Fin S64x32.rank)
  bcast_S64x32_S64x32x1_0_1 : S64x32.BroadcastsInDim S64x32x1 (![0, 1] : Fin 2 → Fin S64x32x1.rank)
  bcast_S64x32x1_S64x32x32000_0_1_2 : S64x32x1.BroadcastsInDim S64x32x32000 (![0, 1, 2] : Fin 3 → Fin S64x32x32000.rank)
  bcast_S_S64x32x1 : S_.BroadcastsInDim S64x32x1 (![] : Fin 0 → Fin S64x32x1.rank)
  shapeCasts_S64x32x1_S64x32x1x1 : S64x32x1.ShapeCasts S64x32x1x1
  bcast_S_S64x32x1x1 : S_.BroadcastsInDim S64x32x1x1 (![] : Fin 0 → Fin S64x32x1x1.rank)
  bcast_S1_S1x1x1x1_3 : S1.BroadcastsInDim S1x1x1x1 (![3] : Fin 1 → Fin S1x1x1x1.rank)
  bcast_S1x1x1x1_S64x32x1x1_0_1_2_3 : S1x1x1x1.BroadcastsInDim S64x32x1x1 (![0, 1, 2, 3] : Fin 4 → Fin S64x32x1x1.rank)
  reducesTo_S64x32x1x1_S64x32x1_d3 : S64x32x1x1.ReducesTo [3] S64x32x1
  shapeCasts_S64x32x1_S64x32 : S64x32x1.ShapeCasts S64x32
  reducesTo_S64x32_S_d0_1 : S64x32.ReducesTo [0, 1] S_
  gather_S64x32x32000_S64x32x1x1_S64x32x1_n_2_01_01_2_3_111_wf : GatherDims.WF S64x32x32000 S64x32x1x1 S64x32x1 [] [2] [0, 1] [2] [0, 1] 3 ![1, 1, 1]

variable [Facts₀]

def gather_S64x32x32000_S64x32x1x1_S64x32x1_n_2_01_01_2_3_111 : GatherDims S64x32x32000 S64x32x1x1 S64x32x1 where
  offsetDims := []
  collapsedSliceDims := [2]
  operandBatchingDims := [0, 1]
  startIndicesBatchingDims := [0, 1]
  startIndexMap := [2]
  indexVectorDim := 3
  sliceSizes := ![1, 1, 1]
  wf := gather_S64x32x32000_S64x32x1x1_S64x32x1_n_2_01_01_2_3_111_wf

class Facts : Prop extends Facts₀ where

variable [Facts]
-- ==== Proof.LibPreDecode.lean ====
/-
  A precondition's conjuncts read back, element by element.

  A precondition written as a conjunction of `jnp.all` tests prints as a chain of `and`s of whole-array reductions by
  `and`, and the claim says the chain is 1. Each reduction that is 1 met only 1s (the library's `Host.reduce_andi_all`);
  what an element being 1 says depends on the test:

  * `|x| < +inf` on a float array, read at the extended reals: the entry is a real number (the only extended reals
    whose absolute value is not the top element) — `all_real`;
  * `(m == 0) | (m == 1)` on an integer array: the entry is the word 0 or the word 1 — `all_zero_or_one` —, and such a
    word converted to a float is the real 0 or 1 — `sitofp_zero_or_one` —, so that it is its own square
    (`mask_idem`).

  Everything is stated over any shapes, the compared constants as arrays with their entries given, so that a
  printed `broadcast_in_dim` of a scalar constant is supplied by `fun _ => rfl`.
-/
import Idealize.ShloMosaic.Lib.ReduceAll
import Idealize.ShloMosaic.PureOps.Ideal
import Idealize.ShloMosaic.PureOps.Ideal.Laws

noncomputable section

namespace Cert.LibPreDecode

open Idealize.ShloMosaic

/-- The f32 word of +inf denotes the top extended real. -/
theorem ofBits_inf : FloatOps.ofBits (F := Ideal) .f32 0x7F800000#32 = (⊤ : EReal) := by
  simp [Ideal.ofBits, Ideal.ieee]

/-- An extended real whose absolute value lies strictly below the top is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry of the test `|x| < +inf` being 1 says the entry is a real number. -/
theorem real_of_abs_lt_inf (x y : Ideal .f32) (hy : y = FloatOps.ofBits (F := Ideal) .f32 0x7F800000#32)
    (h : FloatOps.cmpf (F := Ideal) .olt (FloatOps.hostAbsf x) y = 1#1) : ∃ r : ℝ, x = (r : EReal) := by
  rw [hy, ofBits_inf, Ideal.hostAbsf_def, Ideal.cmpf_def, Ideal.absf_def] at h
  refine exists_real_of_abs_lt_top x ?_
  by_contra hlt
  simp [Ideal.cmp, hlt] at h

/-- `jnp.all(|x| < inf)` is 1: every entry of `x` is a real number. -/
theorem all_real {s t u : Shape} {axes : List (Fin s.rank)} [Subsingleton t.Idx]
    (x inf : FVec Ideal s .f32) (hinf : ∀ i, inf i = FloatOps.ofBits (F := Ideal) .f32 0x7F800000#32)
    (init : u.Idx → BitVec 1) (h : s.ReducesTo axes t) (hu : 0 < u.numel) (j : t.Idx)
    (e : Host.reduce IntOp.andi (cmpf .olt (Host.absf x) inf) init h hu j = 1#1) (i : s.Idx) :
    ∃ r : ℝ, x i = (r : EReal) :=
  real_of_abs_lt_inf (x i) (inf i) (hinf i) (Host.reduce_andi_all _ init h hu j e i)

/-- `jnp.all((m == 0) | (m == 1))` is 1: every entry of `m` is the word 0 or the word 1. -/
theorem all_zero_or_one {s t u : Shape} {axes : List (Fin s.rank)} [Subsingleton t.Idx] {w : Nat}
    (m z o : IVec s w) (a b : BitVec w) (hz : ∀ i, z i = a) (ho : ∀ i, o i = b)
    (init : u.Idx → BitVec 1) (h : s.ReducesTo axes t) (hu : 0 < u.numel) (j : t.Idx)
    (e : Host.reduce IntOp.andi (ori (cmpi .eq m z) (cmpi .eq m o)) init h hu j = 1#1) (i : s.Idx) :
    m i = a ∨ m i = b := by
  have h1 : IntOp.ori (IntOp.cmpi .eq (m i) (z i)) (IntOp.cmpi .eq (m i) (o i)) = 1#1 :=
    Host.reduce_andi_all _ init h hu j e i
  rcases IntOp.ori_eq_one.1 h1 with h2 | h2
  · exact Or.inl ((IntOp.cmpi_eq.1 h2).trans (hz i))
  · exact Or.inr ((IntOp.cmpi_eq.1 h2).trans (ho i))

/-- A 32-bit word that is 0 or 1, converted to a float, is the real 0 or the real 1. -/
theorem sitofp_zero_or_one (b : BitVec 32) (h : b = 0#32 ∨ b = 1#32) :
    FloatOps.sitofp (F := Ideal) .f32 b = ((0 : ℝ) : EReal) ∨ FloatOps.sitofp (F := Ideal) .f32 b = ((1 : ℝ) : EReal) := by
  rcases h with rfl | rfl
  · left; show (((0#32 : BitVec 32).toInt : ℝ) : EReal) = _; norm_num
  · right; show (((1#32 : BitVec 32).toInt : ℝ) : EReal) = _; norm_num

/-- A mask entry that is the real 0 or 1 is its own square. -/
theorem mask_idem (x : EReal) (h : x = ((0 : ℝ) : EReal) ∨ x = ((1 : ℝ) : EReal)) : x * x = x := by
  rcases h with rfl | rfl <;> simp

end Cert.LibPreDecode

end
-- ==== Proof.Finite.lean ====
/-
  The precondition read back: every logit is a real number.

  The precondition is the conjunction of two tests, |x| < +inf over every logit and over every mask, each a
  conjunction over the whole array.  It being 1 makes the first test 1, which met a 1 at every entry; and an extended
  real whose absolute value is below +inf is a real number.
-/
import proofs.«176176_j65601330479522_2_alg».proof.Pre_finite_inputs
import proofs.«176176_j65601330479522_2_alg».proof.Proof.Gen.Pre_finite_inputs
import proofs.«176176_j65601330479522_2_alg».proof.Proof.LibPreDecode
import Idealize.ShloMosaic.Lib.ValueIdx

noncomputable section

namespace Cert.Finite

open Idealize.ShloMosaic Cert.Pre_finite_inputs

/-- The scalar shape has one index. -/
instance : Subsingleton S_.Idx := ⟨fun a b => funext fun d => d.elim0⟩

/-- Where the precondition holds every logit is a real number. -/
theorem logits_real (x0 : FVec Ideal S64x32x32000 .f32) (x1 : IVec S64x32 32) (x2 : FVec Ideal S64x32 .f32)
    (h : Cert.Pre_finite_inputs.fn (F := Ideal) x0 x1 x2 = fun _ => 1#1) (i : S64x32x32000.Idx) :
    ∃ r : ℝ, x0 i = (r : EReal) := by
  have h1 := congrFun h ValueIdx.ix0
  dsimp only [Cert.Pre_finite_inputs.fn] at h1
  obtain ⟨ha, -⟩ := IntOp.andi_eq_one.1 h1
  exact Cert.LibPreDecode.all_real x0 _ (fun _ => rfl) _ _ _ _ ha i

end Cert.Finite
end
-- ==== Proof.KernelPieces.lean ====
/-
  What one grid point leaves in the two carried accumulators and in the output block, read as values.

  The kernel walks a grid of 8 row blocks by 5 vocabulary chunks.  At each point it updates a running maximum and a
  running sum of exponentials for the 256 rows of its block; at a block's first point both are reset first, and at
  its last point the block's result is written.  Each of the three kinds of point stores whole buffers, so what it
  leaves is the stored value itself: the update of the running maximum, the update of the running sum, and (last
  point) the result computed from both.
-/
import proofs.«176176_j65601330479522_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Crit
open Cert.KernelIdeal Cert.KernelIdeal.Gen

variable {F : FTy → Type} [FloatOps F]

/-- The zero offset of a rank-2 rectangle, as a constant function. -/
theorem hz : (![0, 0] : Fin 2 → Nat) = fun _ => 0 := funext fun a => by fin_cases a <;> rfl

/-! ## First point of a row block: both accumulators are reset, then updated from the chunk -/

theorem first_max (c : Dev nD) (i : grid0.Coords) (a2 : Memref sig .tc .vmem S256x6400 .f32) (h2 : a2.IsWhole)
    (a3 : Memref sig .tc .vmem S256x1 .f32) (h3 : a3.IsWhole) (a4 : Memref sig .tc .vmem S256x1 .f32) (h4 : a4.IsWhole)
    (a5 : Memref sig .tc .vmem S256x1 .f32) (h5 : a5.IsWhole) (a6 : Memref sig .tc .vmem S256x1 .f32) (h6 : a6.IsWhole)
    (a7 : Memref sig .tc .vmem S256x1 .f32) (h7 : a7.IsWhole) (hc0 : cond0_0 i) (hc1 : ¬cond0_1 i)
    (x0 : Vec F S256x6400 .f32) (x1 x2 : Vec F S256x1 .f32) :
    sout0_A_0 c i a2 h2 a3 h3 a4 h4 a5 h5 a6 h6 a7 h7 hc0 hc1 x0 x1 x2 = k0_pay6 x0 (k0_pay1 (F := F)) := by
  unfold sout0_A_0
  rw [View.read_writes_eq_canon _ _ _ (scover0_A_0 c i a2 h2 a3 h3 a4 h4 a5 h5 a6 h6 a7 h7 hc0 hc1 x0 x1 x2)]
  unfold kernelRun0_A
  dsimp only
  sl_unfold_words
  rw [View.canon_cons_unit_zero (S := S256x1) hz]
  simp only [View.readCov_unit_zero (S := S256x1) _ hz, View.readAt_eq_ld, h2.read_unread, h3.read_unread, h4.read_unread, h6.read_unread, h7.read_unread,
    View.ld_unit_zero (S := S256x6400) hz, View.ld_unit_zero (S := S256x1) hz]

theorem first_sum (c : Dev nD) (i : grid0.Coords) (a2 : Memref sig .tc .vmem S256x6400 .f32) (h2 : a2.IsWhole)
    (a3 : Memref sig .tc .vmem S256x1 .f32) (h3 : a3.IsWhole) (a4 : Memref sig .tc .vmem S256x1 .f32) (h4 : a4.IsWhole)
    (a5 : Memref sig .tc .vmem S256x1 .f32) (h5 : a5.IsWhole) (a6 : Memref sig .tc .vmem S256x1 .f32) (h6 : a6.IsWhole)
    (a7 : Memref sig .tc .vmem S256x1 .f32) (h7 : a7.IsWhole) (hc0 : cond0_0 i) (hc1 : ¬cond0_1 i)
    (x0 : Vec F S256x6400 .f32) (x1 x2 : Vec F S256x1 .f32) :
    sout0_A_1 c i a2 h2 a3 h3 a4 h4 a5 h5 a6 h6 a7 h7 hc0 hc1 x0 x1 x2 = k0_pay5 x0 (k0_pay1 (F := F)) (k0_pay2 (F := F)) (k0_pay1 (F := F)) := by
  unfold sout0_A_1
  rw [View.read_writes_eq_canon _ _ _ (scover0_A_1 c i a2 h2 a3 h3 a4 h4 a5 h5 a6 h6 a7 h7 hc0 hc1 x0 x1 x2)]
  unfold kernelRun0_A
  dsimp only
  sl_unfold_words
  rw [View.canon_cons_unit_zero (S := S256x1) hz]
  simp only [View.readCov_unit_zero (S := S256x1) _ hz, View.readAt_eq_ld, h2.read_unread, h3.read_unread, h4.read_unread, h6.read_unread, h7.read_unread,
    View.ld_unit_zero (S := S256x6400) hz, View.ld_unit_zero (S := S256x1) hz]

/-! ## A middle point: both accumulators updated from the chunk and from what the point before left -/

theorem mid_max (c : Dev nD) (i : grid0.Coords) (a2 : Memref sig .tc .vmem S256x6400 .f32) (h2 : a2.IsWhole)
    (a3 : Memref sig .tc .vmem S256x1 .f32) (h3 : a3.IsWhole) (a4 : Memref sig .tc .vmem S256x1 .f32) (h4 : a4.IsWhole)
    (a5 : Memref sig .tc .vmem S256x1 .f32) (h5 : a5.IsWhole) (a6 : Memref sig .tc .vmem S256x1 .f32) (h6 : a6.IsWhole)
    (a7 : Memref sig .tc .vmem S256x1 .f32) (h7 : a7.IsWhole) (hc0 : ¬cond0_0 i) (hc1 : ¬cond0_1 i)
    (x0 : Vec F S256x6400 .f32) (x1 x2 xs0 xs1 : Vec F S256x1 .f32) :
    sout0_B_0 c i a2 h2 a3 h3 a4 h4 a5 h5 a6 h6 a7 h7 hc0 hc1 x0 x1 x2 xs0 xs1 = k0_pay6 x0 xs0 := by
  unfold sout0_B_0
  rw [View.read_writes_eq_canon _ _ _ (scover0_B_0 c i a2 h2 a3 h3 a4 h4 a5 h5 a6 h6 a7 h7 hc0 hc1 x0 x1 x2 xs0 xs1)]
  unfold kernelRun0_B
  dsimp only
  rw [View.canon_unit_zero hz]
  simp only [View.readAt_eq_ld, h2.read_unread, h3.read_unread, h4.read_unread, h6.read_unread, h7.read_unread,
    View.ld_unit_zero (S := S256x6400) hz, View.ld_unit_zero (S := S256x1) hz]

theorem mid_sum (c : Dev nD) (i : grid0.Coords) (a2 : Memref sig .tc .vmem S256x6400 .f32) (h2 : a2.IsWhole)
    (a3 : Memref sig .tc .vmem S256x1 .f32) (h3 : a3.IsWhole) (a4 : Memref sig .tc .vmem S256x1 .f32) (h4 : a4.IsWhole)
    (a5 : Memref sig .tc .vmem S256x1 .f32) (h5 : a5.IsWhole) (a6 : Memref sig .tc .vmem S256x1 .f32) (h6 : a6.IsWhole)
    (a7 : Memref sig .tc .vmem S256x1 .f32) (h7 : a7.IsWhole) (hc0 : ¬cond0_0 i) (hc1 : ¬cond0_1 i)
    (x0 : Vec F S256x6400 .f32) (x1 x2 xs0 xs1 : Vec F S256x1 .f32) :
    sout0_B_1 c i a2 h2 a3 h3 a4 h4 a5 h5 a6 h6 a7 h7 hc0 hc1 x0 x1 x2 xs0 xs1 = k0_pay5 x0 xs0 xs1 xs0 := by
  unfold sout0_B_1
  rw [View.read_writes_eq_canon _ _ _ (scover0_B_1 c i a2 h2 a3 h3 a4 h4 a5 h5 a6 h6 a7 h7 hc0 hc1 x0 x1 x2 xs0 xs1)]
  unfold kernelRun0_B
  dsimp only
  rw [View.canon_unit_zero hz]
  simp only [View.readAt_eq_ld, h2.read_unread, h3.read_unread, h4.read_unread, h6.read_unread, h7.read_unread,
    View.ld_unit_zero (S := S256x6400) hz, View.ld_unit_zero (S := S256x1) hz]

/-! ## Last point of a row block: the accumulators updated, then the block's result written -/

theorem last_max (c : Dev nD) (i : grid0.Coords) (a2 : Memref sig .tc .vmem S256x6400 .f32) (h2 : a2.IsWhole)
    (a3 : Memref sig .tc .vmem S256x1 .f32) (h3 : a3.IsWhole) (a4 : Memref sig .tc .vmem S256x1 .f32) (h4 : a4.IsWhole)
    (a5 : Memref sig .tc .vmem S256x1 .f32) (h5 : a5.IsWhole) (a6 : Memref sig .tc .vmem S256x1 .f32) (h6 : a6.IsWhole)
    (a7 : Memref sig .tc .vmem S256x1 .f32) (h7 : a7.IsWhole) (hc0 : ¬cond0_0 i) (hc1 : cond0_1 i)
    (x0 : Vec F S256x6400 .f32) (x1 x2 xs0 xs1 : Vec F S256x1 .f32) :
    sout0_C_0 c i a2 h2 a3 h3 a4 h4 a5 h5 a6 h6 a7 h7 hc0 hc1 x0 x1 x2 xs0 xs1 = k0_pay6 x0 xs0 := by
  unfold sout0_C_0
  rw [View.read_writes_eq_canon _ _ _ (scover0_C_0 c i a2 h2 a3 h3 a4 h4 a5 h5 a6 h6 a7 h7 hc0 hc1 x0 x1 x2 xs0 xs1)]
  unfold kernelRun0_C
  dsimp only
  sl_unfold_words
  rw [View.canon_unit_zero hz]
  simp only [View.readCov_unit_zero (S := S256x1) _ hz, View.readAt_eq_ld, h2.read_unread, h3.read_unread, h4.read_unread, h6.read_unread, h7.read_unread,
    View.ld_unit_zero (S := S256x6400) hz, View.ld_unit_zero (S := S256x1) hz]

theorem last_sum (c : Dev nD) (i : grid0.Coords) (a2 : Memref sig .tc .vmem S256x6400 .f32) (h2 : a2.IsWhole)
    (a3 : Memref sig .tc .vmem S256x1 .f32) (h3 : a3.IsWhole) (a4 : Memref sig .tc .vmem S256x1 .f32) (h4 : a4.IsWhole)
    (a5 : Memref sig .tc .vmem S256x1 .f32) (h5 : a5.IsWhole) (a6 : Memref sig .tc .vmem S256x1 .f32) (h6 : a6.IsWhole)
    (a7 : Memref sig .tc .vmem S256x1 .f32) (h7 : a7.IsWhole) (hc0 : ¬cond0_0 i) (hc1 : cond0_1 i)
    (x0 : Vec F S256x6400 .f32) (x1 x2 xs0 xs1 : Vec F S256x1 .f32) :
    sout0_C_1 c i a2 h2 a3 h3 a4 h4 a5 h5 a6 h6 a7 h7 hc0 hc1 x0 x1 x2 xs0 xs1 = k0_pay5 x0 xs0 xs1 xs0 := by
  unfold sout0_C_1
  rw [View.read_writes_eq_canon _ _ _ (scover0_C_1 c i a2 h2 a3 h3 a4 h4 a5 h5 a6 h6 a7 h7 hc0 hc1 x0 x1 x2 xs0 xs1)]
  unfold kernelRun0_C
  dsimp only
  sl_unfold_words
  rw [View.canon_unit_zero hz]
  simp only [View.readCov_unit_zero (S := S256x1) _ hz, View.readAt_eq_ld, h2.read_unread, h3.read_unread, h4.read_unread, h6.read_unread, h7.read_unread,
    View.ld_unit_zero (S := S256x6400) hz, View.ld_unit_zero (S := S256x1) hz]

theorem last_out (c : Dev nD) (i : grid0.Coords) (a2 : Memref sig .tc .vmem S256x6400 .f32) (h2 : a2.IsWhole)
    (a3 : Memref sig .tc .vmem S256x1 .f32) (h3 : a3.IsWhole) (a4 : Memref sig .tc .vmem S256x1 .f32) (h4 : a4.IsWhole)
    (a5 : Memref sig .tc .vmem S256x1 .f32) (h5 : a5.IsWhole) (a6 : Memref sig .tc .vmem S256x1 .f32) (h6 : a6.IsWhole)
    (a7 : Memref sig .tc .vmem S256x1 .f32) (h7 : a7.IsWhole) (hc0 : ¬cond0_0 i) (hc1 : cond0_1 i)
    (x0 : Vec F S256x6400 .f32) (x1 x2 xs0 xs1 : Vec F S256x1 .f32) :
    out0_C_3 c i a2 h2 a3 h3 a4 h4 a5 h5 a6 h6 a7 h7 hc0 hc1 x0 x1 x2 xs0 xs1 = k0_pay7 (k0_pay6 x0 xs0) (k0_pay5 x0 xs0 xs1 xs0) x2 x1 := by
  unfold out0_C_3
  rw [View.read_writes_eq_canon _ _ _ (cover0_C_3 c i a2 h2 a3 h3 a4 h4 a5 h5 a6 h6 a7 h7 hc0 hc1 x0 x1 x2 xs0 xs1)]
  unfold kernelRun0_C
  dsimp only
  sl_unfold_words
  rw [View.canon_unit_zero hz]
  simp only [View.readCov_unit_zero (S := S256x1) _ hz, View.readAt_eq_ld, h2.read_unread, h3.read_unread, h4.read_unread, h6.read_unread, h7.read_unread,
    View.ld_unit_zero (S := S256x6400) hz, View.ld_unit_zero (S := S256x1) hz]

end Cert.KernelIdeal.Crit
end
-- ==== Proof.LibRowOps.lean ====
/-
  Rows of a matrix and slabs of a rank-3 array, read at an entry.

  * The largest entry of each row of an `[m, n]` array, taken from a starting word: at row `p` it is the fold of
    `max` over the `n` entries of that row; the same for the host's reduction with a maximum body from an initial
    value.
  * An `[a, b]` array cast to `[a, b, 1]` reads, at `(p, k, u)`, the entry `(p, k)`; spread over `[a, b, c]`
    it reads, at `(p, k, j)`, the entry `(p, k, 0)`: a per-row, per-column scalar laid along the last axis.
  * A sum of an `[a, b, c]` array along its middle axis reads, at `(p, j)`, the sum over `k` of the entries
    `(p, k, j)`.
-/
import Idealize.ShloMosaic.Lib.Pipeline.Value
import Idealize.ShloMosaic.Lib.ValueIdx
import Idealize.ShloMosaic.PureOps.Ideal.Laws

noncomputable section

open scoped BigOperators

namespace Cert.LibRowOps

open Idealize.ShloMosaic Idealize.ShloMosaic.ValueIdx

variable {α : Type}

/-- Putting the dropped column coordinate `k` back into the row index `p` gives the entry `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float maximum along the second axis from the word `acc`, read at row `p`: the fold of `max` over that
    row's entries, from the word's value. -/
theorem rowMax_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.maximumf.neutral .f32 hφ) (p : Fin m) :
    multiReduction .maximumf [1] (⟨1, ![m]⟩ : Shape) src acc h hφ hacc (ix1 p)
      = (Finset.univ : Finset (Fin n)).fold max (Ideal.ofBits .f32 acc) (fun k => src (ix2 p k)) := by
  refine (Ideal.multiReduction_maximumf_single src acc h hφ hacc (ix1 p)).trans ?_
  have hf : (src ∘ h.lift (ix1 p)) = fun k : Fin n => src (ix2 p k) := funext fun k => congrArg src (lift_row h p k)
  exact congrArg (fun f => Finset.fold max (Ideal.ofBits .f32 acc) f (Finset.univ : Finset (Fin n))) hf

/-- The host's reduction with a maximum body along the second axis, read at row `p`: the fold of `max` over that
    row's entries, from the initial value. -/
theorem hostRowMax_apply {m n : ℕ} {u : Shape} (x : (⟨2, ![m, n]⟩ : Shape).Idx → Ideal .f32) (init : u.Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < u.numel) (p : Fin m) :
    Host.reduce FloatOps.maximumf x init h' hu (ix1 p)
      = (Finset.univ : Finset (Fin n)).fold max (init (Shape.Idx.first hu)) (fun k => x (ix2 p k)) := by
  refine (Host.reduce_eq_fold_single FloatOps.maximumf x init h' h hu (ix1 p)).trans ?_
  have hf : (x ∘ h.lift (ix1 p)) = fun k : Fin n => x (ix2 p k) := funext fun k => congrArg x (lift_row h p k)
  exact congrArg (fun f => Finset.fold max (init (Shape.Idx.first hu)) f (Finset.univ : Finset (Fin n))) hf

/-- An `[a, b]` array cast to `[a, b, 1]` reads, at `(p, k, u)`, the array at `(p, k)`: both positions are the
    same one in row-major order. -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_three, Shape.rowMajor_val_two]
    show p.val * b + k.val = (p.val * b + k.val) * 1 + u.val
    rw [hu, Nat.mul_one, Nat.add_zero])

/-- An `[a, b, 1]` array spread over `[a, b, c]` reads, at `(p, k, j)`, the array at `(p, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (j : Fin c) :
    broadcastTo ⟨3, ![a, b, c]⟩ v h (ix3 p k j) = v (ix3 p k (0 : Fin 1)) := by
  refine broadcastTo_apply v h (ix3 p k j) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- Putting the dropped middle coordinate `k` back into `(p, j)` gives the entry `(p, k, j)`. -/
theorem lift_mid {a b c : ℕ} (h : (⟨3, ![a, b, c]⟩ : Shape).Reduces [1] (⟨2, ![a, c]⟩ : Shape)) (p : Fin a) (j : Fin c)
    (k : Fin ((⟨3, ![a, b, c]⟩ : Shape).size 1)) : h.lift (ix2 p j) k = ix3 p (⟨k.val, k.isLt⟩ : Fin b) j := by
  funext d; apply Fin.ext
  fin_cases d <;> rfl

/-- A float sum along the middle axis from the zero word, read at `(p, j)`: the sum over `k` of the entries
    `(p, k, j)`, on the extended reals. -/
theorem midSum_apply {a b c : ℕ} (src : FVec Ideal ⟨3, ![a, b, c]⟩ .f32) (acc : BitVec 32)
    (h : (⟨3, ![a, b, c]⟩ : Shape).Reduces [1] (⟨2, ![a, c]⟩ : Shape)) (hφ : FKind.Formats .f32)
    (hacc : acc = FKind.add.neutral .f32 hφ) (p : Fin a) (j : Fin c) :
    multiReduction .add [1] (⟨2, ![a, c]⟩ : Shape) src acc h hφ hacc (ix2 p j) = ∑ k : Fin b, src (ix3 p k j) := by
  refine (Ideal.multiReduction_add_single src acc h hφ hacc (ix2 p j)).trans ?_
  exact Finset.sum_congr rfl fun k _ => congrArg src (lift_mid h p j k)

end Cert.LibRowOps

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.KernelPay.lean ====
/-
  The kernel's stored values read at one row, on the extended reals.

  For the 256 rows of a block and one chunk of 6400 columns: the chunk's largest entry of a row is the fold of max over
  the row from -inf; the new running maximum is the larger of it and the old one; the new running sum is the old sum
  times exp (old maximum - new maximum) plus the sum over the chunk of exp (entry - new maximum); and at a block's last
  point the result of a row is ((maximum + log sum) - picked logit) * mask.
-/
import proofs.«176176_j65601330479522_2_alg».proof.Proof.Gen.KernelIdeal.Skeleton
import proofs.«176176_j65601330479522_2_alg».proof.Proof.LibRowOps
import proofs.«176176_j65601330479522_2_alg».proof.Proof.LibKeepdims
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Crit
open Cert.KernelIdeal Cert.KernelIdeal.Gen

/-- The largest entry of row `p` of a chunk, from -inf. -/
def chunkMax (v3 : FVec Ideal S256x6400 .f32) (p : Fin 256) : EReal :=
  (Finset.univ : Finset (Fin 6400)).fold max (Ideal.ofBits .f32 0xFF800000#32) (fun k => v3 (ix2 p k))

/-- The reset value of the running maximum: -inf in every row. -/
theorem reset_max_apply (p : Fin 256) (u : Fin 1) : k0_pay1 (F := Ideal) (ix2 p u) = Ideal.ofBits .f32 0xFF800000#32 := by
  unfold k0_pay1
  exact congrFun (shapeCast_self _ _) _

/-- The reset value of the running sum: zero in every row. -/
theorem reset_sum_apply (p : Fin 256) (u : Fin 1) : k0_pay2 (F := Ideal) (ix2 p u) = Ideal.ofBits .f32 0x00000000#32 := by
  unfold k0_pay2
  exact congrFun (shapeCast_self _ _) _

/-- The chunk as loaded is the chunk. -/
theorem chunk_eq (v3 : FVec Ideal S256x6400 .f32) : k0_pay3 (F := Ideal) v3 = v3 := by
  unfold k0_pay3
  exact shapeCast_self _ _

/-- The new running maximum of row `p`. -/
theorem new_max_apply (v3 : FVec Ideal S256x6400 .f32) (v7 : FVec Ideal S256x1 .f32) (p : Fin 256) (u : Fin 1) :
    k0_pay4 (F := Ideal) v3 v7 (ix2 p u) = max (v7 (ix2 p u)) (chunkMax v3 p) := by
  unfold k0_pay4
  rw [chunk_eq]
  refine congrArg (max (v7 (ix2 p u))) ?_
  refine (Cert.LibKeepdims.shapeCast_a_a1_apply _ _ p u).trans ?_
  exact Cert.LibRowOps.rowMax_apply v3 _ _ _ _ p

/-- The stored running maximum is the new running maximum. -/
theorem stored_max_eq (v3 : FVec Ideal S256x6400 .f32) (v7 : FVec Ideal S256x1 .f32) :
    k0_pay6 (F := Ideal) v3 v7 = k0_pay4 (F := Ideal) v3 v7 := by
  unfold k0_pay6
  exact shapeCast_self _ _

/-- The new running sum of row `p`. -/
theorem new_sum_apply (v3 : FVec Ideal S256x6400 .f32) (v7 v9 v10 : FVec Ideal S256x1 .f32) (p : Fin 256) (u : Fin 1) :
    k0_pay5 (F := Ideal) v3 v7 v9 v10 (ix2 p u)
      = v9 (ix2 p u) * Ideal.exp (v10 (ix2 p u) - k0_pay4 (F := Ideal) v3 v7 (ix2 p u))
        + ∑ k : Fin 6400, Ideal.exp (v3 (ix2 p k) - k0_pay4 (F := Ideal) v3 v7 (ix2 p (0 : Fin 1))) := by
  unfold k0_pay5
  rw [chunk_eq]
  refine (congrFun (shapeCast_self _ _) _).trans ?_
  refine congrArg (v9 (ix2 p u) * Ideal.exp (v10 (ix2 p u) - k0_pay4 (F := Ideal) v3 v7 (ix2 p u)) + ·) ?_
  refine (Cert.LibKeepdims.shapeCast_a_a1_apply _ _ p u).trans ?_
  refine (Cert.LibKeepdims.rowSum_apply _ _ _ _ p).trans ?_
  refine Finset.sum_congr rfl fun k _ => ?_
  show Ideal.exp (v3 (ix2 p k) - broadcastTo S256x6400 (k0_pay4 (F := Ideal) v3 v7) _ (ix2 p k)) = _
  rw [Cert.LibKeepdims.broadcastTo_a1_ab_apply]

/-- The result of row `p` at a block's last point. -/
theorem result_apply (a b g mk : FVec Ideal S256x1 .f32) (p : Fin 256) (u : Fin 1) :
    k0_pay7 (F := Ideal) a b g mk (ix2 p u)
      = ((a (ix2 p u) + Ideal.log (b (ix2 p u))) - g (ix2 p u)) * mk (ix2 p u) := by
  unfold k0_pay7
  rw [shapeCast_self, shapeCast_self]
  rfl

end Cert.KernelIdeal.Crit
end
-- ==== Proof.LibOnlineLse.lean ====
/-
  The log-sum-exp of a finite family of reals, computed chunk by chunk with a running maximum.

  A row of N = C * J reals is read in J chunks of C entries.  The running pair (m, l) starts at
  (⊥, 0) and is updated by  m' = max m (max of the chunk),
  l' = l * exp (m - m') + Σ_k exp (chunk k - m').  After n ≥ 1 chunks, m is the maximum M of the
  first C * n entries and l is Σ_i exp (y i - M) over those entries.
-/
import Idealize.ShloMosaic.PureOps.Ideal
import Mathlib.Algebra.BigOperators.Fin
import Mathlib.Algebra.BigOperators.Intervals
import Mathlib.Algebra.Order.BigOperators.Group.Finset
import Mathlib.Data.Finset.Fold
import Mathlib.Tactic

noncomputable section

namespace Cert.Lse

open Idealize.ShloMosaic

/-- the n-th chunk of C consecutive entries, as extended reals -/
def chunk (C : ℕ) (y : ℕ → ℝ) (n : ℕ) : Fin C → EReal :=
  fun k => ((y (C * n + k.val) : ℝ) : EReal)

/-- the updated running maximum -/
def stepM {C : ℕ} (m : EReal) (ch : Fin C → EReal) : EReal :=
  max m (Finset.univ.fold max ⊥ ch)

/-- the updated running sum, rescaled to the updated maximum -/
def stepL {C : ℕ} (m l : EReal) (ch : Fin C → EReal) : EReal :=
  l * Ideal.exp (m - stepM m ch) + ∑ k, Ideal.exp (ch k - stepM m ch)

/-- the running pair after n chunks -/
def run (C : ℕ) (y : ℕ → ℝ) : ℕ → EReal × EReal
  | 0 => (⊥, 0)
  | n + 1 => (stepM (run C y n).1 (chunk C y n),
      stepL (run C y n).1 (run C y n).2 (chunk C y n))

/-- the largest of the first N entries (N ≥ 1) -/
def Mr (y : ℕ → ℝ) (N : ℕ) : ℝ := (Finset.range N).fold max (y 0) y

/-- the sum of exp (y i - M) over the first N entries, M their maximum -/
def Sr (y : ℕ → ℝ) (N : ℕ) : ℝ := ∑ i ∈ Finset.range N, Real.exp (y i - Mr y N)

/-! ### The maximum of the first N entries -/

/-- every one of the first N entries is at most their maximum -/
theorem le_Mr (y : ℕ → ℝ) {i N : ℕ} (h : i < N) : y i ≤ Mr y N := by
  unfold Mr
  rw [Finset.le_fold_max]
  exact Or.inr ⟨i, Finset.mem_range.2 h, le_rfl⟩

/-- the maximum is attained (so it is below some entry) when N ≥ 1 -/
theorem exists_Mr_le (y : ℕ → ℝ) {N : ℕ} (hN : 0 < N) : ∃ j, j < N ∧ Mr y N ≤ y j := by
  have h : Mr y N ≤ (Finset.range N).fold max (y 0) y := le_rfl
  rw [Finset.le_fold_max] at h
  rcases h with h | ⟨j, hj, h⟩
  · exact ⟨0, hN, h⟩
  · exact ⟨j, Finset.mem_range.1 hj, h⟩

/-- universal property of the maximum, read in the extended reals -/
theorem coe_Mr_le_iff (y : ℕ → ℝ) {N : ℕ} (hN : 0 < N) (c : EReal) :
    ((Mr y N : ℝ) : EReal) ≤ c ↔ ∀ i, i < N → ((y i : ℝ) : EReal) ≤ c := by
  constructor
  · intro h i hi
    exact le_trans (EReal.coe_le_coe_iff.2 (le_Mr y hi)) h
  · intro h
    obtain ⟨j, hj, hle⟩ := exists_Mr_le y hN
    exact le_trans (EReal.coe_le_coe_iff.2 hle) (h j hj)

/-- the one-pass maximum over the flat index -/
theorem fold_max_eq (y : ℕ → ℝ) {N : ℕ} (hN : 0 < N) :
    (Finset.univ : Finset (Fin N)).fold max (⊥ : EReal) (fun v => ((y v.val : ℝ) : EReal))
      = ((Mr y N : ℝ) : EReal) := by
  apply eq_of_forall_ge_iff
  intro c
  rw [Finset.fold_max_le, coe_Mr_le_iff y hN]
  constructor
  · rintro ⟨_, h⟩ i hi
    exact h ⟨i, hi⟩ (Finset.mem_univ _)
  · intro h
    exact ⟨bot_le, fun v _ => h v.val v.isLt⟩

/-- one update of the running maximum: if m is the supremum of the first C * n entries
(⊥ when n = 0), the update is the maximum of the first C * (n + 1) entries -/
theorem stepM_eq {C : ℕ} (hC : 0 < C) (y : ℕ → ℝ) (m : EReal) (n : ℕ)
    (hm : ∀ c : EReal, m ≤ c ↔ ∀ i, i < C * n → ((y i : ℝ) : EReal) ≤ c) :
    stepM m (chunk C y n) = ((Mr y (C * (n + 1)) : ℝ) : EReal) := by
  have hpos : 0 < C * (n + 1) := Nat.mul_pos hC (Nat.succ_pos n)
  have e : C * (n + 1) = C * n + C := by ring
  apply eq_of_forall_ge_iff
  intro c
  unfold stepM
  rw [max_le_iff, Finset.fold_max_le, coe_Mr_le_iff y hpos, hm c]
  constructor
  · rintro ⟨h1, _, h2⟩ i hi
    by_cases hlt : i < C * n
    · exact h1 i hlt
    · have hk : i - C * n < C := by omega
      have h3 := h2 ⟨i - C * n, hk⟩ (Finset.mem_univ _)
      have e2 : C * n + (i - C * n) = i := by omega
      unfold chunk at h3
      simp only [e2] at h3
      exact h3
  · intro h
    refine ⟨fun i hi => h i (by omega), bot_le, fun k _ => ?_⟩
    unfold chunk
    apply h
    have := k.isLt
    omega

/-! ### Sums -/

/-- the inclusion of the reals in the extended reals commutes with finite sums -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- the extended exponential on a real -/
theorem exp_coe (r : ℝ) : Ideal.exp ((r : ℝ) : EReal) = ((Real.exp r : ℝ) : EReal) := rfl

/-- a sum over the first C * (n + 1) entries splits off its last chunk -/
theorem sum_split (y : ℕ → ℝ) (C n : ℕ) (M' : ℝ) :
    ∑ i ∈ Finset.range (C * (n + 1)), Real.exp (y i - M')
      = ∑ i ∈ Finset.range (C * n), Real.exp (y i - M')
        + ∑ k ∈ Finset.range C, Real.exp (y (C * n + k) - M') := by
  have e : C * (n + 1) = C * n + C := by ring
  rw [e, Finset.sum_range_add]

/-- the sum of exponentials over one chunk, as a real -/
theorem chunk_sum (y : ℕ → ℝ) (C n : ℕ) (M' : ℝ) :
    ∑ k : Fin C, Ideal.exp (chunk C y n k - ((M' : ℝ) : EReal))
      = ((∑ k ∈ Finset.range C, Real.exp (y (C * n + k) - M') : ℝ) : EReal) := by
  rw [coe_sum,
    ← Fin.sum_univ_eq_sum_range (fun k => ((Real.exp (y (C * n + k) - M') : ℝ) : EReal)) C]
  rfl

/-- one update of the running sum -/
theorem stepL_eq {C : ℕ} (y : ℕ → ℝ) (m l : EReal) (n : ℕ)
    (hM : stepM m (chunk C y n) = ((Mr y (C * (n + 1)) : ℝ) : EReal))
    (hl : l * Ideal.exp (m - ((Mr y (C * (n + 1)) : ℝ) : EReal))
      = ((∑ i ∈ Finset.range (C * n), Real.exp (y i - Mr y (C * (n + 1))) : ℝ) : EReal)) :
    stepL m l (chunk C y n) = ((Sr y (C * (n + 1)) : ℝ) : EReal) := by
  unfold stepL
  rw [hM, hl, chunk_sum, ← EReal.coe_add]
  unfold Sr
  rw [sum_split]

/-- rescaling the sum of the first C * n entries from the old maximum to the new one -/
theorem rescale (y : ℕ → ℝ) (K : ℕ) (M M' : ℝ) :
    (∑ i ∈ Finset.range K, Real.exp (y i - M)) * Real.exp (M - M')
      = ∑ i ∈ Finset.range K, Real.exp (y i - M') := by
  rw [Finset.sum_mul]
  apply Finset.sum_congr rfl
  intro i _
  rw [← Real.exp_add]
  congr 1
  ring

/-! ### The running pair -/

theorem run_succ_eq {C : ℕ} (hC : 0 < C) (y : ℕ → ℝ) (n : ℕ) :
    run C y (n + 1)
      = (((Mr y (C * (n + 1)) : ℝ) : EReal), ((Sr y (C * (n + 1)) : ℝ) : EReal)) := by
  induction n with
  | zero =>
    have hM : stepM (⊥ : EReal) (chunk C y 0) = ((Mr y (C * (0 + 1)) : ℝ) : EReal) := by
      apply stepM_eq hC y ⊥ 0
      intro c
      simp
    have hL : stepL (⊥ : EReal) 0 (chunk C y 0) = ((Sr y (C * (0 + 1)) : ℝ) : EReal) := by
      apply stepL_eq y ⊥ 0 0 hM
      simp
    simp only [run]
    rw [hM, hL]
  | succ n ih =>
    have hpos : 0 < C * (n + 1) := Nat.mul_pos hC (Nat.succ_pos n)
    have hM : stepM ((Mr y (C * (n + 1)) : ℝ) : EReal) (chunk C y (n + 1))
        = ((Mr y (C * (n + 1 + 1)) : ℝ) : EReal) :=
      stepM_eq hC y _ (n + 1) (fun c => coe_Mr_le_iff y hpos c)
    have hL : stepL ((Mr y (C * (n + 1)) : ℝ) : EReal) ((Sr y (C * (n + 1)) : ℝ) : EReal)
        (chunk C y (n + 1)) = ((Sr y (C * (n + 1 + 1)) : ℝ) : EReal) := by
      apply stepL_eq y _ _ (n + 1) hM
      rw [← EReal.coe_sub, exp_coe, ← EReal.coe_mul]
      unfold Sr
      rw [rescale]
    rw [run, ih]
    simp only []
    rw [hM, hL]

/-- after n ≥ 1 chunks the running pair is (maximum, sum of exponentials) of the entries read -/
theorem run_eq {C : ℕ} (hC : 0 < C) (y : ℕ → ℝ) {n : ℕ} (hn : 0 < n) :
    run C y n = (((Mr y (C * n) : ℝ) : EReal), ((Sr y (C * n) : ℝ) : EReal)) := by
  obtain ⟨k, rfl⟩ := Nat.exists_eq_succ_of_ne_zero hn.ne'
  exact run_succ_eq hC y k

/-- the sum of exponentials is positive: each term is, and there is one -/
theorem Sr_pos (y : ℕ → ℝ) {N : ℕ} (hN : 0 < N) : 0 < Sr y N :=
  Finset.sum_pos (fun _ _ => Real.exp_pos _) ⟨0, Finset.mem_range.2 hN⟩

/-- the extended logarithm of the (positive) sum is the real logarithm -/
theorem log_Sr (y : ℕ → ℝ) {N : ℕ} (hN : 0 < N) :
    Ideal.log ((Sr y N : ℝ) : EReal) = ((Real.log (Sr y N) : ℝ) : EReal) := by
  show (if Sr y N ≤ 0 then (⊥ : EReal) else ((Real.log (Sr y N) : ℝ) : EReal)) = _
  rw [if_neg (not_le.2 (Sr_pos y hN))]

/-- the value m + log l after n ≥ 1 chunks -/
theorem run_value {C : ℕ} (hC : 0 < C) (y : ℕ → ℝ) {n : ℕ} (hn : 0 < n) :
    (run C y n).1 + Ideal.log (run C y n).2
      = ((Mr y (C * n) + Real.log (Sr y (C * n)) : ℝ) : EReal) := by
  rw [run_eq hC y hn]
  simp only []
  rw [log_Sr y (Nat.mul_pos hC hn), ← EReal.coe_add]

/-- the one-pass sum of exponentials over the flat index -/
theorem sum_exp_eq (y : ℕ → ℝ) {N : ℕ} (hN : 0 < N) :
    ∑ v : Fin N, Ideal.exp (((y v.val : ℝ) : EReal) - ((Mr y N : ℝ) : EReal))
      = ((Sr y N : ℝ) : EReal) := by
  unfold Sr
  rw [coe_sum,
    ← Fin.sum_univ_eq_sum_range (fun i => ((Real.exp (y i - Mr y N) : ℝ) : EReal)) N]
  rfl

/-- two spellings of (M + log S) - g -/
theorem nll_eq (M lS g : ℝ) :
    ((M : EReal) + (lS : EReal)) - (g : EReal) = -(((g : EReal) - (M : EReal)) - (lS : EReal)) := by
  rw [← EReal.coe_add, ← EReal.coe_sub, ← EReal.coe_sub, ← EReal.coe_sub, ← EReal.coe_neg]
  congr 1
  ring

/-- subtracting ⊥ from a real gives ⊤ -/
theorem nll_bot (M lS : ℝ) : ((M : EReal) + (lS : EReal)) - (⊥ : EReal) = -(⊥ : EReal) := by
  rw [← EReal.coe_add, EReal.coe_sub_bot, EReal.neg_bot]

end Cert.Lse

end
-- ==== Proof.KernelChain.lean ====
/-
  The two accumulators point by point: the online log-sum-exp of each row.

  The grid is walked row block by row block (t / 5), chunk by chunk (t % 5).  After the point of chunk j the running
  maximum and running sum of row p of block i are the online recurrence's state after j + 1 chunks of the row's 32000
  logits: by induction on the point, the first point of a block starting the recurrence from (-inf, 0), every other
  point stepping it from what the point before left.  At a block's last point the result written for a row is
  ((maximum + log sum) - picked logit) * mask of the state after all five chunks.
-/
import proofs.«176176_j65601330479522_2_alg».proof.Proof.Gen.KernelIdeal.Frame
import proofs.«176176_j65601330479522_2_alg».proof.Proof.KernelPieces
import proofs.«176176_j65601330479522_2_alg».proof.Proof.KernelPay
import proofs.«176176_j65601330479522_2_alg».proof.Proof.LibOnlineLse
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.Crit
open Cert.KernelIdeal Cert.KernelIdeal.Gen

/-! ## What each kind of point leaves, over the point before (any float instance) -/

section AnyInstance
variable {F : FTy → Type} [FloatOps F]
variable (m : (ℓ : Loc nD τ sig) → Buf (Elt F) ℓ)

/-- A block's first point: the recurrence started from the reset values. -/
theorem acc_first (c : Dev nD) (t : Fin cfg0.N) (h0 : t.val % 5 = 0) (h1 : ¬t.val % 5 = 4) :
    (outsAt0 m c t.val t.isLt).2.1 = k0_pay6 (iblk m c 0 t) (k0_pay1 (F := F))
    ∧ (outsAt0 m c t.val t.isLt).2.2 = k0_pay5 (iblk m c 0 t) (k0_pay1 (F := F)) (k0_pay2 (F := F)) (k0_pay1 (F := F)) := by
  have e := outsAt0_A m c t h0 h1
  exact ⟨(congrArg (fun x => x.2.1) e).trans (first_max c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)),
    (congrArg (fun x => x.2.2) e).trans (first_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t))⟩

/-- A middle point: the recurrence stepped from what the point before left. -/
theorem acc_mid (c : Dev nD) (t : Fin cfg0.N) (h0 : ¬t.val % 5 = 0) (h1 : ¬t.val % 5 = 4) :
    (outsAt0 m c t.val t.isLt).2.1 = k0_pay6 (iblk m c 0 t) (outsAt0 m c (t.val - 1) (Nat.lt_of_le_of_lt (Nat.sub_le _ _) t.isLt)).2.1
    ∧ (outsAt0 m c t.val t.isLt).2.2 = k0_pay5 (iblk m c 0 t) (outsAt0 m c (t.val - 1) (Nat.lt_of_le_of_lt (Nat.sub_le _ _) t.isLt)).2.1 (outsAt0 m c (t.val - 1) (Nat.lt_of_le_of_lt (Nat.sub_le _ _) t.isLt)).2.2 (outsAt0 m c (t.val - 1) (Nat.lt_of_le_of_lt (Nat.sub_le _ _) t.isLt)).2.1 := by
  have e := outsAt0_B m c t h0 h1
  exact ⟨(congrArg (fun x => x.2.1) e).trans (mid_max c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2),
    (congrArg (fun x => x.2.2) e).trans (mid_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)⟩

/-- A block's last point: the recurrence stepped once more, and the result written from the new state. -/
theorem acc_last (c : Dev nD) (t : Fin cfg0.N) (h0 : ¬t.val % 5 = 0) (h1 : t.val % 5 = 4) :
    (outsAt0 m c t.val t.isLt).2.1 = k0_pay6 (iblk m c 0 t) (outsAt0 m c (t.val - 1) (Nat.lt_of_le_of_lt (Nat.sub_le _ _) t.isLt)).2.1
    ∧ (outsAt0 m c t.val t.isLt).2.2 = k0_pay5 (iblk m c 0 t) (outsAt0 m c (t.val - 1) (Nat.lt_of_le_of_lt (Nat.sub_le _ _) t.isLt)).2.1 (outsAt0 m c (t.val - 1) (Nat.lt_of_le_of_lt (Nat.sub_le _ _) t.isLt)).2.2 (outsAt0 m c (t.val - 1) (Nat.lt_of_le_of_lt (Nat.sub_le _ _) t.isLt)).2.1
    ∧ (outsAt0 m c t.val t.isLt).1
      = k0_pay7 (k0_pay6 (iblk m c 0 t) (outsAt0 m c (t.val - 1) (Nat.lt_of_le_of_lt (Nat.sub_le _ _) t.isLt)).2.1) (k0_pay5 (iblk m c 0 t) (outsAt0 m c (t.val - 1) (Nat.lt_of_le_of_lt (Nat.sub_le _ _) t.isLt)).2.1 (outsAt0 m c (t.val - 1) (Nat.lt_of_le_of_lt (Nat.sub_le _ _) t.isLt)).2.2 (outsAt0 m c (t.val - 1) (Nat.lt_of_le_of_lt (Nat.sub_le _ _) t.isLt)).2.1)
          (iblk m c 2 t) (iblk m c 1 t) := by
  have e := outsAt0_C m c t h0 h1
  exact ⟨(congrArg (fun x => x.2.1) e).trans (last_max c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2),
    (congrArg (fun x => x.2.2) e).trans (last_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2),
    (congrArg (fun x => x.1) e).trans (last_out c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2)⟩

end AnyInstance

/-! ## Where a point's blocks sit in the arrays -/

/-- The printed index maps over the grid: logits block (t / 5, t % 5); masks, picks and results block (t / 5, 0). -/
theorem idx_facts : ∀ t : Fin cfg0.N,
    win0_0.index t (0 : Fin 2) = t.val / 5 ∧ win0_0.index t (1 : Fin 2) = t.val % 5
    ∧ win0_1.index t (0 : Fin 2) = t.val / 5 ∧ win0_1.index t (1 : Fin 2) = 0
    ∧ win0_2.index t (0 : Fin 2) = t.val / 5 ∧ win0_2.index t (1 : Fin 2) = 0
    ∧ win0_3.index t (0 : Fin 2) = t.val / 5 ∧ win0_3.index t (1 : Fin 2) = 0 :=
  (by decide +kernel : ∀ t : Fin grid0.N, _)

variable (m : (ℓ : Loc nD τ sig) → Buf (Elt Ideal) ℓ)

/-- Entry (p, k) of the chunk a point loads is the logit of row 256 (t / 5) + p at column 6400 (t % 5) + k. -/
theorem chunk_entry (c : Dev nD) (t : Fin cfg0.N) (p : Fin 256) (k : Fin 6400) (r : Fin 2048) (q : Fin 32000)
    (hr : r.val = 256 * (t.val / 5) + p.val) (hq : q.val = 6400 * (t.val % 5) + k.val) :
    (iblk m c 0 t : Vec Ideal S256x6400 .f32) (ix2 p k) = V m c main_v0 (ix2 r q) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 256 + 1 * p.val = r.val; rw [e0, hr]; omega
  | ⟨1, _⟩ => show win0_0.index t (1 : Fin 2) * 6400 + 1 * k.val = q.val; rw [e1, hq]; omega

/-- Entry (p, u) of the mask block a point loads is the mask of row 256 (t / 5) + p. -/
theorem mask_entry (c : Dev nD) (t : Fin cfg0.N) (p : Fin 256) (u : Fin 1) (r : Fin 2048)
    (hr : r.val = 256 * (t.val / 5) + p.val) :
    (iblk m c 1 t : Vec Ideal S256x1 .f32) (ix2 p u) = V m c main_v2 (ix2 r (0 : Fin 1)) := by
  obtain ⟨-, -, e0, e1, -⟩ := idx_facts t
  unfold iblk
  rw [View.read_apply]
  show V m c main_v2 _ = V m c main_v2 _
  refine congrArg (V m c main_v2) (funext fun a => Fin.ext ?_)
  match a with
  | ⟨0, _⟩ => show win0_1.index t (0 : Fin 2) * 256 + 1 * p.val = r.val; rw [e0, hr]; omega
  | ⟨1, _⟩ => show win0_1.index t (1 : Fin 2) * 1 + 1 * u.val = 0; rw [e1]; omega

/-- Entry (p, u) of the block of picked logits a point loads is the pick of row 256 (t / 5) + p. -/
theorem pick_entry (c : Dev nD) (t : Fin cfg0.N) (p : Fin 256) (u : Fin 1) (r : Fin 2048)
    (hr : r.val = 256 * (t.val / 5) + p.val) :
    (iblk m c 2 t : Vec Ideal S256x1 .f32) (ix2 p u) = V m c main_v3 (ix2 r (0 : Fin 1)) := by
  obtain ⟨-, -, -, -, e0, e1, -⟩ := idx_facts t
  unfold iblk
  rw [View.read_apply]
  show V m c main_v3 _ = V m c main_v3 _
  refine congrArg (V m c main_v3) (funext fun a => Fin.ext ?_)
  match a with
  | ⟨0, _⟩ => show win0_2.index t (0 : Fin 2) * 256 + 1 * p.val = r.val; rw [e0, hr]; omega
  | ⟨1, _⟩ => show win0_2.index t (1 : Fin 2) * 1 + 1 * u.val = 0; rw [e1]; omega

/-! ## The recurrence -/

/-- The word of -inf denotes the bottom extended real. -/
theorem ofBits_neg_inf : Ideal.ofBits .f32 0xFF800000#32 = (⊥ : EReal) := by
  simp [Ideal.ofBits, Ideal.ieee]

/-- The stored running maximum of a row is one step of the recurrence's maximum. -/
theorem max_step (blk : FVec Ideal S256x6400 .f32) (v7 : FVec Ideal S256x1 .f32) (p : Fin 256) (u : Fin 1) :
    k0_pay6 (F := Ideal) blk v7 (ix2 p u) = Cert.Lse.stepM (v7 (ix2 p u)) (fun k : Fin 6400 => blk (ix2 p k)) := by
  rw [stored_max_eq, new_max_apply]
  unfold chunkMax Cert.Lse.stepM
  rw [ofBits_neg_inf]

/-- The stored running sum of a row is one step of the recurrence's sum. -/
theorem sum_step (blk : FVec Ideal S256x6400 .f32) (v7 v9 : FVec Ideal S256x1 .f32) (p : Fin 256) (u : Fin 1) :
    k0_pay5 (F := Ideal) blk v7 v9 v7 (ix2 p u)
      = Cert.Lse.stepL (v7 (ix2 p u)) (v9 (ix2 p u)) (fun k : Fin 6400 => blk (ix2 p k)) := by
  obtain rfl : u = 0 := Subsingleton.elim _ _
  rw [new_sum_apply, new_max_apply]
  unfold chunkMax Cert.Lse.stepL Cert.Lse.stepM
  rw [ofBits_neg_inf]

/-- The logits of row `r` as real numbers (zero past the row's end and for a row that is none). -/
def rowReal (c : Dev nD) (r : ℕ) : ℕ → ℝ := fun k =>
  if h : r < 2048 ∧ k < 32000 then (V m c main_v0 (ix2 (⟨r, h.1⟩ : Fin 2048) (⟨k, h.2⟩ : Fin 32000))).toReal else 0

/-- Where every logit is a real number, a row's entries are its real numbers. -/
theorem row_entry (c : Dev nD) (hfin : ∀ i, ∃ x : ℝ, V m c main_v0 i = (x : EReal)) (r : Fin 2048) (q : Fin 32000) :
    V m c main_v0 (ix2 r q) = ((rowReal m c r.val q.val : ℝ) : EReal) := by
  obtain ⟨x, hx⟩ := hfin (ix2 r q)
  unfold rowReal
  rw [dif_pos ⟨r.isLt, q.isLt⟩]
  show _ = (((V m c main_v0 (ix2 r q)).toReal : ℝ) : EReal)
  rw [hx, EReal.toReal_coe]

/-- The chunk a point loads, row `p`, is chunk t % 5 of the real row 256 (t / 5) + p. -/
theorem chunk_row (c : Dev nD) (hfin : ∀ i, ∃ x : ℝ, V m c main_v0 i = (x : EReal)) (t : Fin cfg0.N) (p : Fin 256) :
    (fun k : Fin 6400 => (iblk m c 0 t : Vec Ideal S256x6400 .f32) (ix2 p k))
      = Cert.Lse.chunk 6400 (rowReal m c (256 * (t.val / 5) + p.val)) (t.val % 5) := by
  have hN : t.val < 40 := lt_of_lt_of_eq t.isLt (show cfg0.N = 40 from N_0)
  funext k
  have hr : 256 * (t.val / 5) + p.val < 2048 := by have := p.isLt; omega
  have hq : 6400 * (t.val % 5) + k.val < 32000 := by have := k.isLt; omega
  rw [chunk_entry m c t p k ⟨_, hr⟩ ⟨_, hq⟩ rfl rfl, row_entry m c hfin]
  rfl

/-- THE STATE AFTER EACH POINT: the recurrence's state after t % 5 + 1 chunks of each row of the point's block. -/
theorem acc_eq (c : Dev nD) (hfin : ∀ i, ∃ x : ℝ, V m c main_v0 i = (x : EReal)) :
    ∀ (n : ℕ) (h : n < cfg0.N) (p : Fin 256) (u : Fin 1),
      (outsAt0 m c n h).2.1 (ix2 p u) = (Cert.Lse.run 6400 (rowReal m c (256 * (n / 5) + p.val)) (n % 5 + 1)).1
      ∧ (outsAt0 m c n h).2.2 (ix2 p u) = (Cert.Lse.run 6400 (rowReal m c (256 * (n / 5) + p.val)) (n % 5 + 1)).2 := by
  intro n
  induction n with
  | zero =>
    intro h p u
    obtain ⟨e1, e2⟩ := acc_first m c ⟨0, h⟩ rfl (by show ¬(0 % 5 = 4); decide)
    have hch := chunk_row m c hfin ⟨0, h⟩ p
    constructor
    · rw [show (outsAt0 m c 0 h).2.1 = _ from e1, max_step, reset_max_apply, ofBits_neg_inf, hch]; rfl
    · rw [show (outsAt0 m c 0 h).2.2 = _ from e2, sum_step, reset_max_apply, reset_sum_apply, ofBits_neg_inf,
        Ideal.ofBits_zero_f32, hch]; rfl
  | succ n ih =>
    intro h p u
    have hN : n + 1 < 40 := lt_of_lt_of_eq h (show cfg0.N = 40 from N_0)
    have hch := chunk_row m c hfin ⟨n + 1, h⟩ p
    by_cases h0 : (n + 1) % 5 = 0
    · have h1 : ¬(n + 1) % 5 = 4 := by omega
      obtain ⟨e1, e2⟩ := acc_first m c ⟨n + 1, h⟩ h0 h1
      constructor
      · rw [show (outsAt0 m c (n + 1) h).2.1 = _ from e1, max_step, reset_max_apply, ofBits_neg_inf, hch]
        show _ = (Cert.Lse.run 6400 _ ((n + 1) % 5 + 1)).1
        rw [h0]; rfl
      · rw [show (outsAt0 m c (n + 1) h).2.2 = _ from e2, sum_step, reset_max_apply, reset_sum_apply, ofBits_neg_inf,
          Ideal.ofBits_zero_f32, hch]
        show _ = (Cert.Lse.run 6400 _ ((n + 1) % 5 + 1)).2
        rw [h0]; rfl
    · have hd : (n + 1) / 5 = n / 5 := by omega
      have hm : (n + 1) % 5 = n % 5 + 1 := by omega
      obtain ⟨i1, i2⟩ := ih (Nat.lt_of_succ_lt h) p u
      have step : (outsAt0 m c (n + 1) h).2.1
            = k0_pay6 (iblk m c 0 ⟨n + 1, h⟩) (outsAt0 m c n (Nat.lt_of_succ_lt h)).2.1
          ∧ (outsAt0 m c (n + 1) h).2.2
            = k0_pay5 (iblk m c 0 ⟨n + 1, h⟩) (outsAt0 m c n (Nat.lt_of_succ_lt h)).2.1
                (outsAt0 m c n (Nat.lt_of_succ_lt h)).2.2 (outsAt0 m c n (Nat.lt_of_succ_lt h)).2.1 := by
        by_cases h1 : (n + 1) % 5 = 4
        · exact ⟨(acc_last m c ⟨n + 1, h⟩ h0 h1).1, (acc_last m c ⟨n + 1, h⟩ h0 h1).2.1⟩
        · exact acc_mid m c ⟨n + 1, h⟩ h0 h1
      constructor
      · rw [step.1, max_step, i1, hch]
        show _ = (Cert.Lse.run 6400 (rowReal m c (256 * ((n + 1) / 5) + p.val)) ((n + 1) % 5 + 1)).1
        rw [hd, hm]; rfl
      · rw [step.2, sum_step, i1, i2, hch]
        show _ = (Cert.Lse.run 6400 (rowReal m c (256 * ((n + 1) / 5) + p.val)) ((n + 1) % 5 + 1)).2
        rw [hd, hm]; rfl

end Cert.KernelIdeal.Crit
end
-- ==== Proof.KernelOut.lean ====
/-
  The result array after the region, and the program's result.

  Only a row block's last point writes back, and it writes the block's 256 results; the eight last points cover the
  2048 rows.  So the array ends holding, at row r, ((maximum + log sum) - picked logit) * mask of the recurrence's state
  after all five chunks of row r.  The host then adds up the 2048 entries from zero and divides by 64.
-/
import proofs.«176176_j65601330479522_2_alg».proof.Proof.Gen.KernelIdeal.Frame
import proofs.«176176_j65601330479522_2_alg».proof.Proof.KernelChain
import Idealize.ShloMosaic.Lib.Pipeline.Value
import Idealize.ShloMosaic.Lib.ValueIdx
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Crit
open Cert.KernelIdeal Cert.KernelIdeal.Gen

variable (m : (ℓ : Loc nD τ sig) → Buf (Elt Ideal) ℓ) (ρ : Dev nD → PrngReg)

/-- The result of row r: from the recurrence's state after the row's five chunks, the row's pick and the row's mask. -/
def rowResult (c : Dev nD) : S2048x1.Idx → Elt Ideal .f32 := fun i =>
  (((Cert.Lse.run 6400 (rowReal m c (i 0).val) 5).1 + Ideal.log (Cert.Lse.run 6400 (rowReal m c (i 0).val) 5).2)
    - V m c main_v3 i) * V m c main_v2 i

/-- What a block's last point leaves in the output block, row p. -/
theorem last_entry (c : Dev nD) (hfin : ∀ i, ∃ x : ℝ, V m c main_v0 i = (x : EReal)) (t : Fin cfg0.N) (h1 : t.val % 5 = 4)
    (p : Fin 256) (u : Fin 1) (r : Fin 2048) (hr : r.val = 256 * (t.val / 5) + p.val) :
    (outsAt0 m c t.val t.isLt).1 (ix2 p u) = rowResult m c (ix2 r (0 : Fin 1)) := by
  have h0 : ¬t.val % 5 = 0 := by omega
  obtain ⟨ea, eb, eo⟩ := acc_last m c t h0 h1
  obtain ⟨sa, sb⟩ := acc_eq m c hfin t.val t.isLt p u
  rw [eo, result_apply, ← ea, ← eb, sa, sb, h1, pick_entry m c t p u r hr, mask_entry m c t p u r hr]
  unfold rowResult
  show _ = (((Cert.Lse.run 6400 (rowReal m c r.val) 5).1 + Ideal.log (Cert.Lse.run 6400 (rowReal m c r.val) 5).2)
    - V m c main_v3 (ix2 r (0 : Fin 1))) * V m c main_v2 (ix2 r (0 : Fin 1))
  rw [hr]

/-- WHAT A LAST POINT WRITES BACK is its block of the row results. -/
theorem flushed_eq (c : Dev nD) (hfin : ∀ i, ∃ x : ℝ, V m c main_v0 i = (x : EReal)) (t : Fin cfg0.N)
    (hf : (cfg0.win 3).flush t = true) :
    (dats m 0 c).flushed 3 t = ((cfg0.win 3).blk t).view.read (Elt Ideal) (rowResult m c) := by
  have h1 : t.val % 5 = 4 := (flush0_3 t).mp hf
  have hN : t.val < 40 := lt_of_lt_of_eq t.isLt (show cfg0.N = 40 from N_0)
  obtain ⟨-, -, -, -, -, -, e0, e1⟩ := idx_facts t
  show (cfg0.win 3).cut (grid0.coords t) ((dats m 0 c).after 3 t) = _
  rw [after0_3]
  funext j
  have hj0 : (j 0).val < 256 := (j 0).isLt
  have hj1 : (j 1).val < 1 := (j 1).isLt
  have hr : 256 * (t.val / 5) + (j 0).val < 2048 := by omega
  have hx : (cfg0.win 3).xinj (grid0.coords t) j = ix2 (⟨(j 0).val, hj0⟩ : Fin 256) (⟨(j 1).val, hj1⟩ : Fin 1) := by
    funext a
    match a with
    | ⟨0, _⟩ => rfl
    | ⟨1, _⟩ => rfl
  have hemb : ((cfg0.win 3).blk t).view.emb j = ix2 (⟨256 * (t.val / 5) + (j 0).val, hr⟩ : Fin 2048) (0 : Fin 1) := by
    funext a; apply Fin.ext
    match a with
    | ⟨0, _⟩ => show win0_3.index t (0 : Fin 2) * 256 + 1 * (j 0).val = 256 * (t.val / 5) + (j 0).val; rw [e0]; omega
    | ⟨1, _⟩ => show win0_3.index t (1 : Fin 2) * 1 + 1 * (j 1).val = 0; rw [e1]; omega
  show (outsAt0 m c t.val t.isLt).1 ((cfg0.win 3).xinj (grid0.coords t) j) = rowResult m c (((cfg0.win 3).blk t).view.emb j)
  rw [hx, hemb]
  exact last_entry m c hfin t h1 ⟨(j 0).val, hj0⟩ ⟨(j 1).val, hj1⟩ ⟨_, hr⟩ rfl

/-- An index of the array is in a point's block iff each coordinate is in the block's range on its axis. -/
theorem mem_blk (t : Fin cfg0.N) (i : S2048x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v4).slice (win0_3.rect t)).set ↔ _
  rw [View.set_slice_whole, Rect.mem_set_unit]
  exact Iff.rfl

/-- Every row is in the block of the last point of its row block. -/
theorem covered (i : S2048x1.Idx) : ∃ t : Fin cfg0.N, (cfg0.win 3).flush t = true ∧ i ∈ ((cfg0.win 3).blk t).view.set := by
  have hi0 : (i 0).val < 2048 := (i 0).isLt
  have hi1 : (i 1).val < 1 := (i 1).isLt
  have hN : cfg0.N = 40 := N_0
  refine ⟨⟨5 * ((i 0).val / 256) + 4, by rw [hN]; omega⟩, (flush0_3 _).mpr (by show (5 * ((i 0).val / 256) + 4) % 5 = 4; omega), ?_⟩
  rw [mem_blk]
  obtain ⟨-, -, -, -, -, -, e0, e1⟩ := idx_facts ⟨5 * ((i 0).val / 256) + 4, by rw [hN]; omega⟩
  have d : (5 * ((i 0).val / 256) + 4) / 5 = (i 0).val / 256 := by omega
  intro a
  match a with
  | ⟨0, _⟩ =>
    show win0_3.index _ (0 : Fin 2) * 256 ≤ (i 0).val ∧ (i 0).val < win0_3.index _ (0 : Fin 2) * 256 + 256
    rw [e0]; show (5 * ((i 0).val / 256) + 4) / 5 * 256 ≤ (i 0).val ∧ (i 0).val < (5 * ((i 0).val / 256) + 4) / 5 * 256 + 256
    rw [d]; omega
  | ⟨1, _⟩ =>
    show win0_3.index _ (1 : Fin 2) * 1 ≤ (i 1).val ∧ (i 1).val < win0_3.index _ (1 : Fin 2) * 1 + 1
    rw [e1]; omega

/-- THE RESULT ARRAY after the region: the row results. -/
theorem final_out (c : Dev nD) (hfin : ∀ i, ∃ x : ℝ, V m c main_v0 i = (x : EReal)) :
    (dats m 0 c).arrAt 3 cfg0.N = rowResult m c :=
  (dats m 0 c).arrAt_eq_of_cover 3 (rowResult m c) (fun t hf => flushed_eq m c hfin t hf) covered

/-- The program's result from the row results: their sum from zero, divided by 64. -/
def meanOf (o : FVec Ideal S2048x1 .f32) : FVec Ideal S_ .f32 :=
  Host.divf (Host.reduceAdd o (constant S_ .f32 0x00000000#32) reducesTo_S2048x1_S_d0_1 h_S_) (constant S_ .f32 0x42800000#32)

/-- The host operations after the region leave the program's result at that function of the result array. -/
theorem tail_eq (c : Dev nD) (hfin : ∀ i, ∃ x : ℝ, V m c main_v0 i = (x : EReal)) :
    Pipeline.afterTail₀ cfgs (dats m) 0 (V0 m) [hostOps1] c main_v6 = meanOf (rowResult m c) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v4)
      = rowResult m c :=
    (Pipeline.withArrays_arr spec0 launch0.win.arr_inj c _ _ 3).trans (final_out m c hfin)
  rw [hw]
  rfl

/-- The kernel's run, read: the program's result at the mean of the row results, the arguments unchanged. -/
theorem run (hfin : ∀ c i, ∃ x : ℝ, V m c main_v0 i = (x : EReal)) :
    θ_run defs (onTc (τ := τ) (main (F := Ideal))) ⟨m, fun _ => 0, ρ⟩ fun r => ∀ c : Dev nD,
      r.2.mem ((c.tc : Thread nD τ).loc main_v6) = meanOf (rowResult m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (Pipeline.mem_restRefs_of main_v6 (by decide) (by decide))).trans (tail_eq m c (hfin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Crit
end
-- ==== Proof.LibFoldAppend.lean ====
/-
  A line of host operations cut in two.

  The buffer contents after a line of host operations are a fold: each operation rewrites its own result buffer from
  the buffers it reads and leaves the rest.  The fold over a concatenation of two lines is the fold over the second,
  started from the fold over the first.  So a long line can be read stretch by stretch: cut it where a called
  function's operations begin and end, state what each stretch leaves in the buffers the later ones read as a small
  function of ANY contents before it, and follow the boundaries forward from the launch contents.  Read that way a
  called function's operations (whose values pass through casts between two spellings of one type) only ever act on
  variables, and every step is a small equation; read in one piece, the same casts sit around large terms.
-/
import Idealize.ShloMosaic.Lib.StableHlo.Run

namespace Cert.FoldAppend

open Idealize.ShloMosaic Idealize.ShloMosaic.StableHlo

variable {τ : Topo} {sig : RefSig} {Val : EltTy → Type}

/-- The fold of a concatenation is the fold of the second part over the fold of the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.FoldAppend
-- ==== Proof.LibTRefCasts.lean ====
/-
  The operations of a function that the host program calls (here the clamp at zero) are printed over typed references:
  a value's contents are carried to its buffer's type and back by a cast along an equation between the two spellings of
  one type.  The casts change nothing: there and back is the identity, and each way the contents stay the same up to
  the spelling of their type.
-/
import Idealize.ShloMosaic.Lib.StableHlo

namespace Cert.Casts

open Idealize.ShloMosaic Idealize.ShloMosaic.StableHlo

variable {sig : RefSig} {Val : EltTy → Type} {T : BufTy}

/-- Contents carried to a typed reference's buffer and back are the contents. -/
theorem ofBuf_toBuf (x : TRef sig T) (w : T.Contents Val) : x.ofBuf (x.toBuf w) = w := by
  show cast _ (cast _ w) = w
  rw [cast_cast, cast_eq]

/-- Carrying contents to a typed reference's buffer changes nothing but the spelling of their type. -/
theorem toBuf_heq (x : TRef sig T) (w : T.Contents Val) : HEq (x.toBuf w) w := cast_heq _ _

/-- Carrying a buffer's contents to the value's type changes nothing but the spelling of their type. -/
theorem ofBuf_heq (x : TRef sig T) (u : x.ref.ty.Contents Val) : HEq (x.ofBuf u) u := cast_heq _ _

end Cert.Casts
-- ==== Proof.RefLine.lean ====
/-
  The reference program as a line of host operations, read stretch by stretch.

  The reference computes, for logits x : [64, 32, 32000], labels and masks : [64, 32],
    logp = (x - max_v x) - log (Σ_v exp (x - max_v x))          (the log-softmax along the last axis),
    g    = logp picked at each position's label (a label below zero counted from the end; a label outside
           the axis picks the junk word),
    out  = (Σ_{b,t} (-g) * mask) / 64.
  Its operations are cut where the two called functions begin and end.  Each stretch is read as one small function
  of whatever the buffers held before it; the line's result is the composition of the four.
-/
import proofs.«176176_j65601330479522_2_alg».proof.Proof.Gen.ReferenceIdeal
import Idealize.ShloMosaic.Lib.StableHlo.Run
import proofs.«176176_j65601330479522_2_alg».proof.Proof.LibFoldAppend
import proofs.«176176_j65601330479522_2_alg».proof.Proof.LibTRefCasts

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-! ## The four stretches as pure functions -/

/-- The largest logit of each position (from the word of -inf, and once more against it). -/
def rowMax (x : (⟨S64x32x32000, .f32⟩ : BufTy).Contents (Elt F)) : (⟨S64x32, .f32⟩ : BufTy).Contents (Elt F) :=
  maximumf (broadcastInDim S64x32 ![] bcast_S_S64x32 (constant S_ .f32 0xFF800000#32))
    (Host.reduce FloatOps.maximumf x (constant S_ .f32 0xFF800000#32) reducesTo_S64x32x32000_S64x32_d2 h_S_)

/-- Logits shifted by a per-position value. -/
def shiftBy (x : (⟨S64x32x32000, .f32⟩ : BufTy).Contents (Elt F)) (mx : (⟨S64x32, .f32⟩ : BufTy).Contents (Elt F)) : (⟨S64x32x32000, .f32⟩ : BufTy).Contents (Elt F) :=
  subf x (broadcastInDim S64x32x32000 ![0, 1, 2] bcast_S64x32x1_S64x32x32000_0_1_2 (broadcastInDim S64x32x1 ![0, 1] bcast_S64x32_S64x32x1_0_1 mx))

/-- The sum of the exponentials along the last axis. -/
def expSumOf (s : (⟨S64x32x32000, .f32⟩ : BufTy).Contents (Elt F)) : (⟨S64x32, .f32⟩ : BufTy).Contents (Elt F) :=
  Host.reduceAdd (Host.exp s) (constant S_ .f32 0x00000000#32) reducesTo_S64x32x32000_S64x32_d2 h_S_

/-- Shifted logits less the logarithm of a per-position value. -/
def lessLog (s : (⟨S64x32x32000, .f32⟩ : BufTy).Contents (Elt F)) (sm : (⟨S64x32, .f32⟩ : BufTy).Contents (Elt F)) : (⟨S64x32x32000, .f32⟩ : BufTy).Contents (Elt F) :=
  subf s (broadcastInDim S64x32x32000 ![0, 1, 2] bcast_S64x32x1_S64x32x32000_0_1_2 (Host.log (broadcastInDim S64x32x1 ![0, 1] bcast_S64x32_S64x32x1_0_1 sm)))

/-- The logits shifted by their position's largest. -/
def shifted (x : (⟨S64x32x32000, .f32⟩ : BufTy).Contents (Elt F)) : (⟨S64x32x32000, .f32⟩ : BufTy).Contents (Elt F) := shiftBy x (rowMax x)

/-- The log-softmax along the last axis. -/
def logSoftmax (x : (⟨S64x32x32000, .f32⟩ : BufTy).Contents (Elt F)) : (⟨S64x32x32000, .f32⟩ : BufTy).Contents (Elt F) :=
  lessLog (shifted x) (expSumOf (shifted x))

/-- The labels with a unit axis appended. -/
def labels3 (l : (⟨S64x32, .i32⟩ : BufTy).Contents (Elt F)) : (⟨S64x32x1, .i32⟩ : BufTy).Contents (Elt F) :=
  broadcastInDim S64x32x1 ![0, 1] bcast_S64x32_S64x32x1_0_1 l

/-- A label below zero is counted from the end of the axis. -/
def wrapped (i1 : (⟨S64x32x1, .i32⟩ : BufTy).Contents (Elt F)) : (⟨S64x32x1, .i32⟩ : BufTy).Contents (Elt F) :=
  select (cmpi .slt i1 (broadcastInDim S64x32x1 ![] bcast_S_S64x32x1 (constantI S_ 32 0#32)))
    (addi i1 (broadcastInDim S64x32x1 ![] bcast_S_S64x32x1 (constantI S_ 32 32000#32))) i1

/-- The wrapped labels as start indices of the gather. -/
def starts (i1 : (⟨S64x32x1, .i32⟩ : BufTy).Contents (Elt F)) : (⟨S64x32x1x1, .i32⟩ : BufTy).Contents (Elt F) :=
  shapeCast _ (wrapped i1) shapeCasts_S64x32x1_S64x32x1x1

/-- Whether each wrapped label lies inside the axis. -/
def inside (i1 : (⟨S64x32x1, .i32⟩ : BufTy).Contents (Elt F)) : (⟨S64x32x1, .i1⟩ : BufTy).Contents (Elt F) :=
  Host.reduce IntOp.andi
    (andi (cmpi .sge (starts i1) (broadcastInDim S64x32x1x1 ![] bcast_S_S64x32x1x1 (constantI S_ 32 0#32)))
      (cmpi .sle (starts i1) (broadcastInDim S64x32x1x1 ![0, 1, 2, 3] bcast_S1x1x1x1_S64x32x1x1_0_1_2_3 (broadcastInDim S1x1x1x1 ![3] bcast_S1_S1x1x1x1_3 (constantI S1 32 31999#32)))))
    (constantI S_ 1 1#1) reducesTo_S64x32x1x1_S64x32x1_d3 h_S_

/-- The entry of each position picked at its label; the junk word where the label lies outside the axis. -/
def picked (lp : (⟨S64x32x32000, .f32⟩ : BufTy).Contents (Elt F)) (i1 : (⟨S64x32x1, .i32⟩ : BufTy).Contents (Elt F)) : (⟨S64x32x1, .f32⟩ : BufTy).Contents (Elt F) :=
  select (inside i1) (Host.gather gather_S64x32x32000_S64x32x1x1_S64x32x1_n_2_01_01_2_3_111 lp (starts i1))
    (broadcastInDim S64x32x1 ![] bcast_S_S64x32x1 (constant S_ .f32 0x7FC00000#32))

/-- The masked negated picks, summed over every position. -/
def total (g : (⟨S64x32x1, .f32⟩ : BufTy).Contents (Elt F)) (mask : (⟨S64x32, .f32⟩ : BufTy).Contents (Elt F)) : (⟨S_, .f32⟩ : BufTy).Contents (Elt F) :=
  Host.reduceAdd (mulf (Host.negf (shapeCast _ g shapeCasts_S64x32x1_S64x32)) mask) (constant S_ .f32 0x00000000#32) reducesTo_S64x32_S_d0_1 h_S_

/-- The sum divided by the batch size. -/
def mean (g : (⟨S64x32x1, .f32⟩ : BufTy).Contents (Elt F)) (mask : (⟨S64x32, .f32⟩ : BufTy).Contents (Elt F)) : (⟨S_, .f32⟩ : BufTy).Contents (Elt F) :=
  Host.divf (total g mask) (constant S_ .f32 0x42800000#32)

/-! ## The operations -/

/-- The log-softmax, its fifteen operations in four steps: the largest logit, -/
abbrev opsA1 : List (HloOp τ sig (Elt F)) :=
  [ TRef.nullary (TRef.of (T := ⟨S_, .f32⟩) main_call0_cst) (constant S_ .f32 0xFF800000#32),
    TRef.binary (TRef.of (T := ⟨S64x32x32000, .f32⟩) main_arg0) (TRef.of (T := ⟨S_, .f32⟩) main_call0_cst) (TRef.of (T := ⟨S64x32, .f32⟩) main_call0_v0) (fun x v => Host.reduce FloatOps.maximumf x v reducesTo_S64x32x32000_S64x32_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S64x32, .f32⟩) main_call0_v1) (broadcastInDim S64x32 ![] bcast_S_S64x32),
    TRef.binary (TRef.of (T := ⟨S64x32, .f32⟩) main_call0_v1) (TRef.of (T := ⟨S64x32, .f32⟩) main_call0_v0) (TRef.of (T := ⟨S64x32, .f32⟩) main_call0_v2) maximumf ]
/-- the shift, -/
abbrev opsA2 : List (HloOp τ sig (Elt F)) :=
  [ TRef.unary (TRef.of (T := ⟨S64x32, .f32⟩) main_call0_v2) (TRef.of (T := ⟨S64x32x1, .f32⟩) main_call0_v3) (broadcastInDim S64x32x1 ![0, 1] bcast_S64x32_S64x32x1_0_1),
    TRef.unary (TRef.of (T := ⟨S64x32x1, .f32⟩) main_call0_v3) (TRef.of (T := ⟨S64x32x32000, .f32⟩) main_call0_v4) (broadcastInDim S64x32x32000 ![0, 1, 2] bcast_S64x32x1_S64x32x32000_0_1_2),
    TRef.binary (TRef.of (T := ⟨S64x32x32000, .f32⟩) main_arg0) (TRef.of (T := ⟨S64x32x32000, .f32⟩) main_call0_v4) (TRef.of (T := ⟨S64x32x32000, .f32⟩) main_call0_v5) subf ]
/-- the sum of exponentials, -/
abbrev opsA3 : List (HloOp τ sig (Elt F)) :=
  [ TRef.unary (TRef.of (T := ⟨S64x32x32000, .f32⟩) main_call0_v5) (TRef.of (T := ⟨S64x32x32000, .f32⟩) main_call0_v6) Host.exp,
    TRef.nullary (TRef.of (T := ⟨S_, .f32⟩) main_call0_cst_1) (constant S_ .f32 0x00000000#32),
    TRef.binary (TRef.of (T := ⟨S64x32x32000, .f32⟩) main_call0_v6) (TRef.of (T := ⟨S_, .f32⟩) main_call0_cst_1) (TRef.of (T := ⟨S64x32, .f32⟩) main_call0_v7) (fun x v => Host.reduceAdd x v reducesTo_S64x32x32000_S64x32_d2 h_S_) ]
/-- and the logarithm subtracted. -/
abbrev opsA4 : List (HloOp τ sig (Elt F)) :=
  [ TRef.unary (TRef.of (T := ⟨S64x32, .f32⟩) main_call0_v7) (TRef.of (T := ⟨S64x32x1, .f32⟩) main_call0_v8) (broadcastInDim S64x32x1 ![0, 1] bcast_S64x32_S64x32x1_0_1),
    TRef.unary (TRef.of (T := ⟨S64x32x1, .f32⟩) main_call0_v8) (TRef.of (T := ⟨S64x32x1, .f32⟩) main_call0_v9) Host.log,
    TRef.unary (TRef.of (T := ⟨S64x32x1, .f32⟩) main_call0_v9) (TRef.of (T := ⟨S64x32x32000, .f32⟩) main_call0_v10) (broadcastInDim S64x32x32000 ![0, 1, 2] bcast_S64x32x1_S64x32x32000_0_1_2),
    TRef.binary (TRef.of (T := ⟨S64x32x32000, .f32⟩) main_call0_v5) (TRef.of (T := ⟨S64x32x32000, .f32⟩) main_call0_v10) (TRef.of (T := ⟨S64x32x32000, .f32⟩) main_v0) subf ]

/-- The labels' unit axis. -/
abbrev opsB : List (HloOp τ sig (Elt F)) :=
  [ unary main_arg1 main_v1 (broadcastInDim S64x32x1 ![0, 1] bcast_S64x32_S64x32x1_0_1 : (⟨S64x32, .i32⟩ : BufTy).Contents (Elt F) → (⟨S64x32x1, .i32⟩ : BufTy).Contents (Elt F)) ]

/-- The pick's twenty-two operations. -/
abbrev opsC : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S64x32x1, .i32⟩) main_call1_v0) (broadcastInDim S64x32x1 ![] bcast_S_S64x32x1),
    TRef.binary (TRef.of (T := ⟨S64x32x1, .i32⟩) main_v1) (TRef.of (T := ⟨S64x32x1, .i32⟩) main_call1_v0) (TRef.of (T := ⟨S64x32x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S64x32x1, .i32⟩) main_call1_v2) (broadcastInDim S64x32x1 ![] bcast_S_S64x32x1),
    TRef.binary (TRef.of (T := ⟨S64x32x1, .i32⟩) main_v1) (TRef.of (T := ⟨S64x32x1, .i32⟩) main_call1_v2) (TRef.of (T := ⟨S64x32x1, .i32⟩) main_call1_v3) addi,
    TRef.ternary (TRef.of (T := ⟨S64x32x1, .i1⟩) main_call1_v1) (TRef.of (T := ⟨S64x32x1, .i32⟩) main_call1_v3) (TRef.of (T := ⟨S64x32x1, .i32⟩) main_v1) (TRef.of (T := ⟨S64x32x1, .i32⟩) main_call1_v4) select,
    TRef.reshape (TRef.of (T := ⟨S64x32x1, .i32⟩) main_call1_v4) (TRef.of (T := ⟨S64x32x1x1, .i32⟩) main_call1_v5) rfl shapeCasts_S64x32x1_S64x32x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S64x32x1x1, .i32⟩) main_call1_v6) (broadcastInDim S64x32x1x1 ![] bcast_S_S64x32x1x1),
    TRef.binary (TRef.of (T := ⟨S64x32x1x1, .i32⟩) main_call1_v5) (TRef.of (T := ⟨S64x32x1x1, .i32⟩) main_call1_v6) (TRef.of (T := ⟨S64x32x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S64x32x1x1, .i32⟩) main_call1_v9) (broadcastInDim S64x32x1x1 ![0, 1, 2, 3] bcast_S1x1x1x1_S64x32x1x1_0_1_2_3),
    TRef.binary (TRef.of (T := ⟨S64x32x1x1, .i32⟩) main_call1_v5) (TRef.of (T := ⟨S64x32x1x1, .i32⟩) main_call1_v9) (TRef.of (T := ⟨S64x32x1x1, .i1⟩) main_call1_v10) (cmpi .sle),
    TRef.binary (TRef.of (T := ⟨S64x32x1x1, .i1⟩) main_call1_v7) (TRef.of (T := ⟨S64x32x1x1, .i1⟩) main_call1_v10) (TRef.of (T := ⟨S64x32x1x1, .i1⟩) main_call1_v11) andi,
    TRef.nullary (TRef.of (T := ⟨S_, .i1⟩) main_call1_c_3) (constantI S_ 1 1#1),
    TRef.binary (TRef.of (T := ⟨S64x32x1x1, .i1⟩) main_call1_v11) (TRef.of (T := ⟨S_, .i1⟩) main_call1_c_3) (TRef.of (T := ⟨S64x32x1, .i1⟩) main_call1_v12) (fun x v => Host.reduce IntOp.andi x v reducesTo_S64x32x1x1_S64x32x1_d3 h_S_),
    TRef.binary (TRef.of (T := ⟨S64x32x32000, .f32⟩) main_v0) (TRef.of (T := ⟨S64x32x1x1, .i32⟩) main_call1_v5) (TRef.of (T := ⟨S64x32x1, .f32⟩) main_call1_v13) (fun x i => Host.gather gather_S64x32x32000_S64x32x1x1_S64x32x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S64x32x1, .f32⟩) main_call1_v14) (broadcastInDim S64x32x1 ![] bcast_S_S64x32x1),
    TRef.ternary (TRef.of (T := ⟨S64x32x1, .i1⟩) main_call1_v12) (TRef.of (T := ⟨S64x32x1, .f32⟩) main_call1_v13) (TRef.of (T := ⟨S64x32x1, .f32⟩) main_call1_v14) (TRef.of (T := ⟨S64x32x1, .f32⟩) main_v2) select ]

/-- The seven operations after the pick. -/
abbrev opsD : List (HloOp τ sig (Elt F)) :=
  [ reshape main_v2 main_v3 rfl shapeCasts_S64x32x1_S64x32,
    unary main_v3 main_v4 (Host.negf : (⟨S64x32, .f32⟩ : BufTy).Contents (Elt F) → (⟨S64x32, .f32⟩ : BufTy).Contents (Elt F)),
    binary main_v4 main_arg2 main_v5 (mulf : (⟨S64x32, .f32⟩ : BufTy).Contents (Elt F) → (⟨S64x32, .f32⟩ : BufTy).Contents (Elt F) → (⟨S64x32, .f32⟩ : BufTy).Contents (Elt F)),
    nullary main_cst (constant S_ .f32 0x00000000#32),
    binary main_v5 main_cst main_v6 ((fun x v => Host.reduceAdd x v reducesTo_S64x32_S_d0_1 h_S_) : (⟨S64x32, .f32⟩ : BufTy).Contents (Elt F) → (⟨S_, .f32⟩ : BufTy).Contents (Elt F) → (⟨S_, .f32⟩ : BufTy).Contents (Elt F)),
    nullary main_cst_0 (constant S_ .f32 0x42800000#32),
    binary main_v6 main_cst_0 main_v7 (Host.divf : (⟨S_, .f32⟩ : BufTy).Contents (Elt F) → (⟨S_, .f32⟩ : BufTy).Contents (Elt F) → (⟨S_, .f32⟩ : BufTy).Contents (Elt F)) ]

/-- The whole line. -/
abbrev ops : List (HloOp τ sig (Elt F)) :=
  [ TRef.nullary (TRef.of (T := ⟨S_, .f32⟩) main_call0_cst) (constant S_ .f32 0xFF800000#32),
    TRef.binary (TRef.of (T := ⟨S64x32x32000, .f32⟩) main_arg0) (TRef.of (T := ⟨S_, .f32⟩) main_call0_cst) (TRef.of (T := ⟨S64x32, .f32⟩) main_call0_v0) (fun x v => Host.reduce FloatOps.maximumf x v reducesTo_S64x32x32000_S64x32_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S64x32, .f32⟩) main_call0_v1) (broadcastInDim S64x32 ![] bcast_S_S64x32),
    TRef.binary (TRef.of (T := ⟨S64x32, .f32⟩) main_call0_v1) (TRef.of (T := ⟨S64x32, .f32⟩) main_call0_v0) (TRef.of (T := ⟨S64x32, .f32⟩) main_call0_v2) maximumf,
    TRef.unary (TRef.of (T := ⟨S64x32, .f32⟩) main_call0_v2) (TRef.of (T := ⟨S64x32x1, .f32⟩) main_call0_v3) (broadcastInDim S64x32x1 ![0, 1] bcast_S64x32_S64x32x1_0_1),
    TRef.unary (TRef.of (T := ⟨S64x32x1, .f32⟩) main_call0_v3) (TRef.of (T := ⟨S64x32x32000, .f32⟩) main_call0_v4) (broadcastInDim S64x32x32000 ![0, 1, 2] bcast_S64x32x1_S64x32x32000_0_1_2),
    TRef.binary (TRef.of (T := ⟨S64x32x32000, .f32⟩) main_arg0) (TRef.of (T := ⟨S64x32x32000, .f32⟩) main_call0_v4) (TRef.of (T := ⟨S64x32x32000, .f32⟩) main_call0_v5) subf,
    TRef.unary (TRef.of (T := ⟨S64x32x32000, .f32⟩) main_call0_v5) (TRef.of (T := ⟨S64x32x32000, .f32⟩) main_call0_v6) Host.exp,
    TRef.nullary (TRef.of (T := ⟨S_, .f32⟩) main_call0_cst_1) (constant S_ .f32 0x00000000#32),
    TRef.binary (TRef.of (T := ⟨S64x32x32000, .f32⟩) main_call0_v6) (TRef.of (T := ⟨S_, .f32⟩) main_call0_cst_1) (TRef.of (T := ⟨S64x32, .f32⟩) main_call0_v7) (fun x v => Host.reduceAdd x v reducesTo_S64x32x32000_S64x32_d2 h_S_),
    TRef.unary (TRef.of (T := ⟨S64x32, .f32⟩) main_call0_v7) (TRef.of (T := ⟨S64x32x1, .f32⟩) main_call0_v8) (broadcastInDim S64x32x1 ![0, 1] bcast_S64x32_S64x32x1_0_1),
    TRef.unary (TRef.of (T := ⟨S64x32x1, .f32⟩) main_call0_v8) (TRef.of (T := ⟨S64x32x1, .f32⟩) main_call0_v9) Host.log,
    TRef.unary (TRef.of (T := ⟨S64x32x1, .f32⟩) main_call0_v9) (TRef.of (T := ⟨S64x32x32000, .f32⟩) main_call0_v10) (broadcastInDim S64x32x32000 ![0, 1, 2] bcast_S64x32x1_S64x32x32000_0_1_2),
    TRef.binary (TRef.of (T := ⟨S64x32x32000, .f32⟩) main_call0_v5) (TRef.of (T := ⟨S64x32x32000, .f32⟩) main_call0_v10) (TRef.of (T := ⟨S64x32x32000, .f32⟩) main_v0) subf,
    unary main_arg1 main_v1 (broadcastInDim S64x32x1 ![0, 1] bcast_S64x32_S64x32x1_0_1 : (⟨S64x32, .i32⟩ : BufTy).Contents (Elt F) → (⟨S64x32x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S64x32x1, .i32⟩) main_call1_v0) (broadcastInDim S64x32x1 ![] bcast_S_S64x32x1),
    TRef.binary (TRef.of (T := ⟨S64x32x1, .i32⟩) main_v1) (TRef.of (T := ⟨S64x32x1, .i32⟩) main_call1_v0) (TRef.of (T := ⟨S64x32x1, .i1⟩) main_call1_v1) (cmpi .slt),
    TRef.nullary (TRef.of (T := ⟨S_, .i32⟩) main_call1_c_0) (constantI S_ 32 32000#32),
    TRef.unary (TRef.of (T := ⟨S_, .i32⟩) main_call1_c_0) (TRef.of (T := ⟨S64x32x1, .i32⟩) main_call1_v2) (broadcastInDim S64x32x1 ![] bcast_S_S64x32x1),
    TRef.binary (TRef.of (T := ⟨S64x32x1, .i32⟩) main_v1) (TRef.of (T := ⟨S64x32x1, .i32⟩) main_call1_v2) (TRef.of (T := ⟨S64x32x1, .i32⟩) main_call1_v3) addi,
    TRef.ternary (TRef.of (T := ⟨S64x32x1, .i1⟩) main_call1_v1) (TRef.of (T := ⟨S64x32x1, .i32⟩) main_call1_v3) (TRef.of (T := ⟨S64x32x1, .i32⟩) main_v1) (TRef.of (T := ⟨S64x32x1, .i32⟩) main_call1_v4) select,
    TRef.reshape (TRef.of (T := ⟨S64x32x1, .i32⟩) main_call1_v4) (TRef.of (T := ⟨S64x32x1x1, .i32⟩) main_call1_v5) rfl shapeCasts_S64x32x1_S64x32x1x1,
    TRef.nullary (TRef.of (T := ⟨S1, .i32⟩) main_call1_c_1) (constantI S1 32 31999#32),
    TRef.nullary (TRef.of (T := ⟨S_, .i32⟩) main_call1_c_2) (constantI S_ 32 0#32),
    TRef.unary (TRef.of (T := ⟨S_, .i32⟩) main_call1_c_2) (TRef.of (T := ⟨S64x32x1x1, .i32⟩) main_call1_v6) (broadcastInDim S64x32x1x1 ![] bcast_S_S64x32x1x1),
    TRef.binary (TRef.of (T := ⟨S64x32x1x1, .i32⟩) main_call1_v5) (TRef.of (T := ⟨S64x32x1x1, .i32⟩) main_call1_v6) (TRef.of (T := ⟨S64x32x1x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S64x32x1x1, .i32⟩) main_call1_v9) (broadcastInDim S64x32x1x1 ![0, 1, 2, 3] bcast_S1x1x1x1_S64x32x1x1_0_1_2_3),
    TRef.binary (TRef.of (T := ⟨S64x32x1x1, .i32⟩) main_call1_v5) (TRef.of (T := ⟨S64x32x1x1, .i32⟩) main_call1_v9) (TRef.of (T := ⟨S64x32x1x1, .i1⟩) main_call1_v10) (cmpi .sle),
    TRef.binary (TRef.of (T := ⟨S64x32x1x1, .i1⟩) main_call1_v7) (TRef.of (T := ⟨S64x32x1x1, .i1⟩) main_call1_v10) (TRef.of (T := ⟨S64x32x1x1, .i1⟩) main_call1_v11) andi,
    TRef.nullary (TRef.of (T := ⟨S_, .i1⟩) main_call1_c_3) (constantI S_ 1 1#1),
    TRef.binary (TRef.of (T := ⟨S64x32x1x1, .i1⟩) main_call1_v11) (TRef.of (T := ⟨S_, .i1⟩) main_call1_c_3) (TRef.of (T := ⟨S64x32x1, .i1⟩) main_call1_v12) (fun x v => Host.reduce IntOp.andi x v reducesTo_S64x32x1x1_S64x32x1_d3 h_S_),
    TRef.binary (TRef.of (T := ⟨S64x32x32000, .f32⟩) main_v0) (TRef.of (T := ⟨S64x32x1x1, .i32⟩) main_call1_v5) (TRef.of (T := ⟨S64x32x1, .f32⟩) main_call1_v13) (fun x i => Host.gather gather_S64x32x32000_S64x32x1x1_S64x32x1_n_2_01_01_2_3_111 x i),
    TRef.nullary (TRef.of (T := ⟨S_, .f32⟩) main_call1_cst) (constant S_ .f32 0x7FC00000#32),
    TRef.unary (TRef.of (T := ⟨S_, .f32⟩) main_call1_cst) (TRef.of (T := ⟨S64x32x1, .f32⟩) main_call1_v14) (broadcastInDim S64x32x1 ![] bcast_S_S64x32x1),
    TRef.ternary (TRef.of (T := ⟨S64x32x1, .i1⟩) main_call1_v12) (TRef.of (T := ⟨S64x32x1, .f32⟩) main_call1_v13) (TRef.of (T := ⟨S64x32x1, .f32⟩) main_call1_v14) (TRef.of (T := ⟨S64x32x1, .f32⟩) main_v2) select,
    reshape main_v2 main_v3 rfl shapeCasts_S64x32x1_S64x32,
    unary main_v3 main_v4 (Host.negf : (⟨S64x32, .f32⟩ : BufTy).Contents (Elt F) → (⟨S64x32, .f32⟩ : BufTy).Contents (Elt F)),
    binary main_v4 main_arg2 main_v5 (mulf : (⟨S64x32, .f32⟩ : BufTy).Contents (Elt F) → (⟨S64x32, .f32⟩ : BufTy).Contents (Elt F) → (⟨S64x32, .f32⟩ : BufTy).Contents (Elt F)),
    nullary main_cst (constant S_ .f32 0x00000000#32),
    binary main_v5 main_cst main_v6 ((fun x v => Host.reduceAdd x v reducesTo_S64x32_S_d0_1 h_S_) : (⟨S64x32, .f32⟩ : BufTy).Contents (Elt F) → (⟨S_, .f32⟩ : BufTy).Contents (Elt F) → (⟨S_, .f32⟩ : BufTy).Contents (Elt F)),
    nullary main_cst_0 (constant S_ .f32 0x42800000#32),
    binary main_v6 main_cst_0 main_v7 (Host.divf : (⟨S_, .f32⟩ : BufTy).Contents (Elt F) → (⟨S_, .f32⟩ : BufTy).Contents (Elt F) → (⟨S_, .f32⟩ : BufTy).Contents (Elt F)) ]

theorem ops_eq : (ops : List (HloOp τ sig (Elt F))) = opsA1 ++ (opsA2 ++ (opsA3 ++ (opsA4 ++ (opsB ++ (opsC ++ opsD))))) := rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., binary_bufs_sub .., nullary_bufs_sub .., binary_bufs_sub .., nullary_bufs_sub .., binary_bufs_sub ..⟩

/-! ## Each stretch over any contents -/

variable (V : Valuation τ sig (Elt F))

theorem A1_v2 : after opsA1 V (Proc.devRef .tc main_call0_v2) = rowMax (V (Proc.devRef .tc main_arg0)) := by
  after_results_simp
  try simp only [Cert.Casts.ofBuf_toBuf]
  rfl
theorem A1_arg0 : after opsA1 V (Proc.devRef .tc main_arg0) = V (Proc.devRef .tc main_arg0) := by after_results_simp
theorem A1_arg1 : after opsA1 V (Proc.devRef .tc main_arg1) = V (Proc.devRef .tc main_arg1) := by after_results_simp
theorem A1_arg2 : after opsA1 V (Proc.devRef .tc main_arg2) = V (Proc.devRef .tc main_arg2) := by after_results_simp

theorem A2_v5 : after opsA2 V (Proc.devRef .tc main_call0_v5)
    = shiftBy (V (Proc.devRef .tc main_arg0)) (V (Proc.devRef .tc main_call0_v2)) := by
  after_results_simp
  try simp only [Cert.Casts.ofBuf_toBuf]
  rfl
theorem A2_arg1 : after opsA2 V (Proc.devRef .tc main_arg1) = V (Proc.devRef .tc main_arg1) := by after_results_simp
theorem A2_arg2 : after opsA2 V (Proc.devRef .tc main_arg2) = V (Proc.devRef .tc main_arg2) := by after_results_simp

theorem A3_v7 : after opsA3 V (Proc.devRef .tc main_call0_v7) = expSumOf (V (Proc.devRef .tc main_call0_v5)) := by
  after_results_simp
  try simp only [Cert.Casts.ofBuf_toBuf]
  rfl
theorem A3_v5 : after opsA3 V (Proc.devRef .tc main_call0_v5) = V (Proc.devRef .tc main_call0_v5) := by after_results_simp
theorem A3_arg1 : after opsA3 V (Proc.devRef .tc main_arg1) = V (Proc.devRef .tc main_arg1) := by after_results_simp
theorem A3_arg2 : after opsA3 V (Proc.devRef .tc main_arg2) = V (Proc.devRef .tc main_arg2) := by after_results_simp

theorem A4_v0 : after opsA4 V (Proc.devRef .tc main_v0)
    = lessLog (V (Proc.devRef .tc main_call0_v5)) (V (Proc.devRef .tc main_call0_v7)) := by
  after_results_simp
  try simp only [Cert.Casts.ofBuf_toBuf]
  rfl
theorem A4_arg1 : after opsA4 V (Proc.devRef .tc main_arg1) = V (Proc.devRef .tc main_arg1) := by after_results_simp
theorem A4_arg2 : after opsA4 V (Proc.devRef .tc main_arg2) = V (Proc.devRef .tc main_arg2) := by after_results_simp

theorem B_v1 : after opsB V (Proc.devRef .tc main_v1) = labels3 (V (Proc.devRef .tc main_arg1)) := by
  after_results_simp
  try simp only [Cert.Casts.ofBuf_toBuf]
  rfl
theorem B_v0 : after opsB V (Proc.devRef .tc main_v0) = V (Proc.devRef .tc main_v0) := by
  after_results_simp
theorem B_arg2 : after opsB V (Proc.devRef .tc main_arg2) = V (Proc.devRef .tc main_arg2) := by
  after_results_simp

theorem C_v2 : after opsC V (Proc.devRef .tc main_v2) = picked (V (Proc.devRef .tc main_v0)) (V (Proc.devRef .tc main_v1)) := by
  after_results_simp
  try simp only [Cert.Casts.ofBuf_toBuf]
  rfl
theorem C_arg2 : after opsC V (Proc.devRef .tc main_arg2) = V (Proc.devRef .tc main_arg2) := by
  after_results_simp

theorem D_v7 : after opsD V (Proc.devRef .tc main_v7) = mean (V (Proc.devRef .tc main_v2)) (V (Proc.devRef .tc main_arg2)) := by
  after_results_simp
  try simp only [Cert.Casts.ofBuf_toBuf]
  rfl

/-- The line's result, from any contents: the four stretches composed. -/
theorem line_v7 : after ops V (Proc.devRef .tc main_v7)
    = mean (picked (logSoftmax (V (Proc.devRef .tc main_arg0))) (labels3 (V (Proc.devRef .tc main_arg1)))) (V (Proc.devRef .tc main_arg2)) := by
  rw [ops_eq, Cert.FoldAppend.after_append, Cert.FoldAppend.after_append, Cert.FoldAppend.after_append,
    Cert.FoldAppend.after_append, Cert.FoldAppend.after_append, Cert.FoldAppend.after_append,
    D_v7, C_v2, C_arg2, B_v1, B_v0, B_arg2, A4_v0, A4_arg1, A4_arg2, A3_v7, A3_v5, A3_arg1, A3_arg2,
    A2_v5, A2_arg1, A2_arg2, A1_v2, A1_arg0, A1_arg1, A1_arg2]
  rfl

/-! ## The run -/

set_option maxRecDepth 8192 in
/-- Every weakly fair execution of the reference terminates with its result at the composed function of the arguments'
    launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
        = mean (picked (logSoftmax (m ((c.tc : Thread nD τ).loc main_arg0))) (labels3 (m ((c.tc : Thread nD τ).loc main_arg1)))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v7).trans (line_v7 _),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.Line

end
-- ==== Proof.LabelWords.lean ====
/-
  What a label word selects along an axis of 32000 entries.

  Picking an entry by a label goes in three steps on the 32-bit word: a label below zero is counted from the end of
  the axis (32000 is added); the wrapped label is tested against the axis (0 ≤ · ≤ 31999), the test passed through a
  conjunction over one element from the bit 1; and the entry read is at the wrapped label taken as a signed number and
  clamped into the axis.  Both programs compute exactly these three functions of the same label, so nothing more
  needs to be known about them.
-/
import Idealize.ShloMosaic.PureOps
import Idealize.ShloMosaic.PureOps.Reduce

namespace Cert.Label

open Idealize.ShloMosaic

/-- A label below zero is counted from the end of the axis. -/
def wrap (l : BitVec 32) : BitVec 32 := Scalar.select (IntOp.cmpi .slt l 0#32) (IntOp.addi l 32000#32) l

/-- Whether the wrapped label lies inside the axis: the two comparisons' conjunction, folded over one element from 1. -/
def inside (l : BitVec 32) : BitVec 1 :=
  (Finset.univ : Finset (Fin 1)).fold (IntOp.andi (w := 1)) 1#1
    (fun _ => IntOp.andi (IntOp.cmpi .sge (wrap l) 0#32) (IntOp.cmpi .sle (wrap l) 31999#32))

/-- The column read: the wrapped label as a signed number, clamped into the axis. -/
def col (l : BitVec 32) : Fin 32000 := ⟨min (wrap l).toInt.toNat 31999, by omega⟩

end Cert.Label
-- ==== Proof.KernelHost.lean ====
/-
  The arrays the kernel's region finds, read at an entry.

  Before the region the host lays the three arguments out by rows — logits [64,32,32000] as [2048,32000], labels and
  masks [64,32] as [2048,1]: row r is position (r / 32, r % 32) — and picks, for every row, the logit at the row's
  label: a label below zero counted from the end, the junk word where the label lies outside the axis.  The
  operations are read in two stretches (the three re-layouts; the pick's twenty-two operations), each as a function of
  whatever the buffers held before it.
-/
import proofs.«176176_j65601330479522_2_alg».proof.Proof.Gen.KernelIdeal.Frame
import proofs.«176176_j65601330479522_2_alg».proof.Proof.LibFoldAppend
import proofs.«176176_j65601330479522_2_alg».proof.Proof.LibTRefCasts
import proofs.«176176_j65601330479522_2_alg».proof.Proof.LabelWords
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.StableHlo Idealize.ShloMosaic.ValueIdx

namespace Cert.KernelIdeal.Rows
open Cert.KernelIdeal Cert.KernelIdeal.Gen

variable {F : FTy → Type} [FloatOps F]

/-! ## The pick as a pure function -/

/-- A label below zero is counted from the end of the axis. -/
def wrapped (i1 : (⟨S2048x1, .i32⟩ : BufTy).Contents (Elt F)) : (⟨S2048x1, .i32⟩ : BufTy).Contents (Elt F) :=
  select (cmpi .slt i1 (broadcastInDim S2048x1 ![] bcast_S_S2048x1 (constantI S_ 32 0#32)))
    (addi i1 (broadcastInDim S2048x1 ![] bcast_S_S2048x1 (constantI S_ 32 32000#32))) i1

/-- The wrapped labels as start indices of the gather. -/
def starts (i1 : (⟨S2048x1, .i32⟩ : BufTy).Contents (Elt F)) : (⟨S2048x1x1, .i32⟩ : BufTy).Contents (Elt F) :=
  shapeCast _ (wrapped i1) shapeCasts_S2048x1_S2048x1x1

/-- Whether each wrapped label lies inside the axis. -/
def inside (i1 : (⟨S2048x1, .i32⟩ : BufTy).Contents (Elt F)) : (⟨S2048x1, .i1⟩ : BufTy).Contents (Elt F) :=
  Host.reduce IntOp.andi
    (andi (cmpi .sge (starts i1) (broadcastInDim S2048x1x1 ![] bcast_S_S2048x1x1 (constantI S_ 32 0#32)))
      (cmpi .sle (starts i1) (broadcastInDim S2048x1x1 ![0, 1, 2] bcast_S1x1x1_S2048x1x1_0_1_2 (broadcastInDim S1x1x1 ![2] bcast_S1_S1x1x1_2 (constantI S1 32 31999#32)))))
    (constantI S_ 1 1#1) reducesTo_S2048x1x1_S2048x1_d2 h_S_

/-- The logit of each row at the row's label; the junk word where the label lies outside the axis. -/
def picked (x : (⟨S2048x32000, .f32⟩ : BufTy).Contents (Elt F)) (i1 : (⟨S2048x1, .i32⟩ : BufTy).Contents (Elt F)) : (⟨S2048x1, .f32⟩ : BufTy).Contents (Elt F) :=
  select (inside i1) (Host.gather gather_S2048x32000_S2048x1x1_S2048x1_n_1_0_0_1_2_11 x (starts i1))
    (broadcastInDim S2048x1 ![] bcast_S_S2048x1 (constant S_ .f32 0x7FC00000#32))

/-! ## The two stretches over any contents -/

section Stretches
variable (W : Valuation τ sig (Elt F))

theorem lay_v0 : after hostOps0 W (Proc.devRef .tc main_v0)
    = shapeCast _ (W (Proc.devRef .tc main_arg0)) shapeCasts_S64x32x32000_S2048x32000 := by
  after_results_simp
  try simp only [Cert.Casts.ofBuf_toBuf]
  rfl
theorem lay_v1 : after hostOps0 W (Proc.devRef .tc main_v1)
    = shapeCast _ (W (Proc.devRef .tc main_arg1)) shapeCasts_S64x32_S2048x1 := by
  after_results_simp
  try simp only [Cert.Casts.ofBuf_toBuf]
  rfl
theorem lay_v2 : after hostOps0 W (Proc.devRef .tc main_v2)
    = shapeCast _ (W (Proc.devRef .tc main_arg2)) shapeCasts_S64x32_S2048x1 := by
  after_results_simp
  try simp only [Cert.Casts.ofBuf_toBuf]
  rfl

theorem pick_v3 : after hostOps0_1 W (Proc.devRef .tc main_v3)
    = picked (W (Proc.devRef .tc main_v0)) (W (Proc.devRef .tc main_v1)) := by
  after_results_simp
  try simp only [Cert.Casts.ofBuf_toBuf]
  rfl
theorem pick_v0 : after hostOps0_1 W (Proc.devRef .tc main_v0) = W (Proc.devRef .tc main_v0) := by after_results_simp
theorem pick_v2 : after hostOps0_1 W (Proc.devRef .tc main_v2) = W (Proc.devRef .tc main_v2) := by after_results_simp

end Stretches

/-! ## The arrays the region finds -/

variable (m : (ℓ : Loc nD τ sig) → Buf (Elt F) ℓ)

theorem prefix_eq : (List.flatten [hostOps0, hostOps0_1] : List (HloOp τ sig (Elt F))) = hostOps0 ++ hostOps0_1 := by
  simp only [List.flatten_cons, List.flatten_nil, List.append_nil]

/-- The logits by rows. -/
theorem logits_eq (c : Dev nD) : (V m c main_v0 : (⟨S2048x32000, .f32⟩ : BufTy).Contents (Elt F))
    = shapeCast _ (m ((c : Thread nD τ).loc main_arg0)) shapeCasts_S64x32x32000_S2048x32000 := by
  show after (List.flatten [hostOps0, hostOps0_1]) (fun b => m (c, b)) (Proc.devRef .tc main_v0) = _
  rw [prefix_eq, Cert.FoldAppend.after_append, pick_v0, lay_v0]

/-- The masks by rows. -/
theorem masks_eq (c : Dev nD) : (V m c main_v2 : (⟨S2048x1, .f32⟩ : BufTy).Contents (Elt F))
    = shapeCast _ (m ((c : Thread nD τ).loc main_arg2)) shapeCasts_S64x32_S2048x1 := by
  show after (List.flatten [hostOps0, hostOps0_1]) (fun b => m (c, b)) (Proc.devRef .tc main_v2) = _
  rw [prefix_eq, Cert.FoldAppend.after_append, pick_v2, lay_v2]

/-- The picked logits. -/
theorem picks_eq (c : Dev nD) : (V m c main_v3 : (⟨S2048x1, .f32⟩ : BufTy).Contents (Elt F))
    = picked (V m c main_v0) (shapeCast _ (m ((c : Thread nD τ).loc main_arg1)) shapeCasts_S64x32_S2048x1) := by
  show after (List.flatten [hostOps0, hostOps0_1]) (fun b => m (c, b)) (Proc.devRef .tc main_v3) = _
  rw [prefix_eq, Cert.FoldAppend.after_append, pick_v3, lay_v1]
  show picked (after hostOps0 (fun b => m (c, b)) (Proc.devRef .tc main_v0)) _ = picked (after (List.flatten [hostOps0, hostOps0_1]) (fun b => m (c, b)) (Proc.devRef .tc main_v0)) _
  rw [prefix_eq, Cert.FoldAppend.after_append, pick_v0]

end Cert.KernelIdeal.Rows
end
-- ==== Proof.KernelRows.lean ====
/-
  The arrays the kernel's region finds, read at an entry: row r of the logits, masks and picks is position
  (r / 32, r % 32) of the arguments, and the pick of a row is the row's logit at the column its label selects, the junk
  word where the label lies outside the axis.
-/
import proofs.«176176_j65601330479522_2_alg».proof.Proof.KernelHost
import Idealize.ShloMosaic.PureOps.Reduce

noncomputable section

open Idealize.ShloMosaic Idealize.ShloMosaic.TcCoe Idealize.SL.Sem Idealize.ShloMosaic.StableHlo Idealize.ShloMosaic.ValueIdx

namespace Cert.KernelIdeal.Rows
open Cert.KernelIdeal Cert.KernelIdeal.Gen

variable {F : FTy → Type} [FloatOps F]

/-! ## The pick, layer by layer -/

/-- The wrapped label of a row is the wrap of the row's label. -/
theorem wrapped_entry (i1 : (⟨S2048x1, .i32⟩ : BufTy).Contents (Elt F)) (j : S2048x1.Idx) : wrapped i1 j = Cert.Label.wrap (i1 j) := rfl

/-- The start index of a row is its wrapped label. -/
theorem starts_entry (i1 : (⟨S2048x1, .i32⟩ : BufTy).Contents (Elt F)) (r : Fin 2048) (u v : Fin 1) :
    starts i1 (ix3 r u v) = Cert.Label.wrap (i1 (ix2 r u)) := by
  unfold starts
  refine (shapeCast_apply _ _ (ix3 r u v) (ix2 r u) ?_).trans (wrapped_entry i1 _)
  rw [Shape.rowMajor_val_three, Shape.rowMajor_val_two]
  show r.val * 1 + u.val = (r.val * 1 + u.val) * 1 + v.val
  omega

/-- Putting the dropped unit coordinate back into (r, u). -/
theorem lift_unit (h : S2048x1x1.Reduces [2] S2048x1) (r : Fin 2048) (u : Fin 1) (k : Fin (S2048x1x1.size 2)) :
    h.lift (ix2 r u) k = ix3 r u (⟨k.val, k.isLt⟩ : Fin 1) := by
  funext a; apply Fin.ext
  fin_cases a <;> rfl

/-- Whether a row's label lies inside the axis. -/
theorem inside_entry (i1 : (⟨S2048x1, .i32⟩ : BufTy).Contents (Elt F)) (r : Fin 2048) (u : Fin 1) :
    inside i1 (ix2 r u) = Cert.Label.inside (i1 (ix2 r u)) := by
  unfold inside
  refine (Host.reduce_eq_fold_single (IntOp.andi (w := 1)) _ _ reducesTo_S2048x1x1_S2048x1_d2 (by decide) h_S_ (ix2 r u)).trans ?_
  unfold Cert.Label.inside
  refine congrArg (fun f => Finset.fold (IntOp.andi (w := 1)) 1#1 f (Finset.univ : Finset (Fin 1))) (funext fun k => ?_)
  show IntOp.andi (IntOp.cmpi .sge (starts i1 _) _) (IntOp.cmpi .sle (starts i1 _) _) = _
  rw [lift_unit, starts_entry]
  rfl

/-- The gather reads row r at the column the row's label selects. -/
theorem gather_entry (x : (⟨S2048x32000, .f32⟩ : BufTy).Contents (Elt F)) (i1 : (⟨S2048x1, .i32⟩ : BufTy).Contents (Elt F)) (r : Fin 2048) (u : Fin 1) :
    Host.gather gather_S2048x32000_S2048x1x1_S2048x1_n_1_0_0_1_2_11 x (starts i1) (ix2 r u)
      = x (ix2 r (Cert.Label.col (i1 (ix2 r u)))) := by
  unfold Host.gather
  refine congrArg x (funext fun a => Fin.ext ?_)
  match a with
  | ⟨0, _⟩ =>
    show gather_S2048x32000_S2048x1x1_S2048x1_n_1_0_0_1_2_11.start (ix2 r u) (starts i1) 0 + gather_S2048x32000_S2048x1x1_S2048x1_n_1_0_0_1_2_11.batchCoord (ix2 r u) 0 + gather_S2048x32000_S2048x1x1_S2048x1_n_1_0_0_1_2_11.offCoord (ix2 r u) 0 = r.val
    rw [GatherDims.start_batching _ _ _ _ (show (0 : Fin 2) ∈ gather_S2048x32000_S2048x1x1_S2048x1_n_1_0_0_1_2_11.operandBatchingDims from by decide),
      GatherDims.offCoord_eq_zero _ _ _ (fun h => ((GatherDims.mem_sKept _ _).mp h).2 (by decide))]
    simp only [Nat.zero_add, Nat.add_zero]
    unfold GatherDims.batchCoord
    rw [dif_pos (show (0 : Fin 2) ∈ gather_S2048x32000_S2048x1x1_S2048x1_n_1_0_0_1_2_11.operandBatchingDims from by decide)]
    rfl
  | ⟨1, _⟩ =>
    show gather_S2048x32000_S2048x1x1_S2048x1_n_1_0_0_1_2_11.start (ix2 r u) (starts i1) 1 + gather_S2048x32000_S2048x1x1_S2048x1_n_1_0_0_1_2_11.batchCoord (ix2 r u) 1 + gather_S2048x32000_S2048x1x1_S2048x1_n_1_0_0_1_2_11.offCoord (ix2 r u) 1 = (Cert.Label.col (i1 (ix2 r u))).val
    rw [GatherDims.batchCoord_eq_zero _ _ _ (show (1 : Fin 2) ∉ gather_S2048x32000_S2048x1x1_S2048x1_n_1_0_0_1_2_11.operandBatchingDims from by decide),
      GatherDims.offCoord_eq_zero _ _ _ (fun h => ((GatherDims.mem_sKept _ _).mp h).1 (by decide))]
    simp only [Nat.add_zero]
    unfold GatherDims.start
    rw [dif_pos (show (1 : Fin 2) ∈ gather_S2048x32000_S2048x1x1_S2048x1_n_1_0_0_1_2_11.startIndexMap from by decide)]
    have hsi : gather_S2048x32000_S2048x1x1_S2048x1_n_1_0_0_1_2_11.siIdx (ix2 r u) ⟨List.idxOf (1 : Fin 2) gather_S2048x32000_S2048x1x1_S2048x1_n_1_0_0_1_2_11.startIndexMap,
        List.idxOf_lt_length_iff.2 (show (1 : Fin 2) ∈ gather_S2048x32000_S2048x1x1_S2048x1_n_1_0_0_1_2_11.startIndexMap from by decide)⟩ = ix3 r u (0 : Fin 1) := by
      funext b; refine Fin.ext ?_
      match b with
      | ⟨0, _⟩ => rfl
      | ⟨1, _⟩ => rfl
      | ⟨2, _⟩ => rfl
    rw [hsi, starts_entry]
    rfl

/-! ## The three arrays at an entry -/

variable (m : (ℓ : Loc nD τ sig) → Buf (Elt F) ℓ)

/-- The logit of row r, column q is the logit of position (r / 32, r % 32), column q. -/
theorem logits_entry (c : Dev nD) (r : Fin 2048) (q : Fin 32000) (b : Fin 64) (t : Fin 32) (hr : r.val = 32 * b.val + t.val) :
    V m c main_v0 (ix2 r q) = m ((c : Thread nD τ).loc main_arg0) (ix3 b t q) := by
  rw [logits_eq]
  refine shapeCast_apply _ _ (ix2 r q) (ix3 b t q) ?_
  rw [Shape.rowMajor_val_three, Shape.rowMajor_val_two]
  show (b.val * 32 + t.val) * 32000 + q.val = r.val * 32000 + q.val
  rw [hr]; ring

/-- The mask of row r is the mask of position (r / 32, r % 32). -/
theorem masks_entry (c : Dev nD) (r : Fin 2048) (u : Fin 1) (b : Fin 64) (t : Fin 32) (hr : r.val = 32 * b.val + t.val) :
    V m c main_v2 (ix2 r u) = m ((c : Thread nD τ).loc main_arg2) (ix2 b t) := by
  rw [masks_eq]
  refine shapeCast_apply _ _ (ix2 r u) (ix2 b t) ?_
  rw [Shape.rowMajor_val_two, Shape.rowMajor_val_two]
  show b.val * 32 + t.val = r.val * 1 + u.val
  omega

/-- The pick of row r: the row's logit at the column its position's label selects, the junk word where the label lies
    outside the axis. -/
theorem picks_entry (c : Dev nD) (r : Fin 2048) (u : Fin 1) (b : Fin 64) (t : Fin 32) (hr : r.val = 32 * b.val + t.val) :
    V m c main_v3 (ix2 r u)
      = Scalar.select (Cert.Label.inside (m ((c : Thread nD τ).loc main_arg1) (ix2 b t)))
          (V m c main_v0 (ix2 r (Cert.Label.col (m ((c : Thread nD τ).loc main_arg1) (ix2 b t)))))
          (FloatOps.ofBits .f32 0x7FC00000#32) := by
  have hl : shapeCast S2048x1 (m ((c : Thread nD τ).loc main_arg1)) shapeCasts_S64x32_S2048x1 (ix2 r u)
      = m ((c : Thread nD τ).loc main_arg1) (ix2 b t) := by
    refine shapeCast_apply _ _ (ix2 r u) (ix2 b t) ?_
    rw [Shape.rowMajor_val_two, Shape.rowMajor_val_two]
    show b.val * 32 + t.val = r.val * 1 + u.val
    omega
  rw [picks_eq]
  unfold picked
  rw [select_apply, inside_entry, gather_entry, hl]
  rfl

end Cert.KernelIdeal.Rows
end
-- ==== Proof.RefRead.lean ====
/-
  The reference program read at one entry.

  For logits x : [64, 32, 32000], labels l and masks w : [64, 32], the operand of the reference's final sum is, at
  position (b, t),  -(g) * w(b, t),  where g is the log-softmax  (x(b,t,c) - M) - log S  at the column c the label
  selects (M the largest logit of the position, S the sum of exp (x(b,t,·) - M)), or the junk word when the label
  lies outside the axis.  Each layer of the reference is read at explicit coordinates and the layers are composed.
-/
import proofs.«176176_j65601330479522_2_alg».proof.Proof.RefLine
import proofs.«176176_j65601330479522_2_alg».proof.Proof.LabelWords
import Idealize.ShloMosaic.Lib.Pipeline.Value
import Idealize.ShloMosaic.Lib.ValueIdx
import Idealize.ShloMosaic.PureOps.Ideal.Laws

noncomputable section

open scoped BigOperators

namespace Cert.ReferenceIdeal.Entry

open Idealize.ShloMosaic Idealize.ShloMosaic.ValueIdx Cert.ReferenceIdeal Cert.ReferenceIdeal.Gen Cert.ReferenceIdeal.Line

variable {α : Type}

/-! ### Indices with a dropped coordinate put back -/

/-- Putting the dropped last coordinate `k` back into `(p, q)` gives the entry `(p, q, k)`. -/
theorem lift_last {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The same at rank 4: the dropped last coordinate put back into `(p, q, r)`. -/
theorem lift_last4 {a b c e : ℕ} (h : (⟨4, ![a, b, c, e]⟩ : Shape).Reduces [3] (⟨3, ![a, b, c]⟩ : Shape)) (p : Fin a)
    (q : Fin b) (r : Fin c) (k : Fin ((⟨4, ![a, b, c, e]⟩ : Shape).size 3)) :
    h.lift (ix3 p q r) k = ix4 p q r (⟨k.val, k.isLt⟩ : Fin e) := by
  funext d; apply Fin.ext
  fin_cases d <;> rfl

/-! ### Reductions along the last axis, read at an entry -/

/-- A maximum along the last axis of an `[a, b, c]` array from an initial value, read at `(p, q)`: the fold of
    `max` over the `c` entries `(p, q, ·)`. -/
theorem hostMax_last {a b c : ℕ} {u : Shape} (x : (⟨3, ![a, b, c]⟩ : Shape).Idx → Ideal .f32) (init : u.Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = (Finset.univ : Finset (Fin c)).fold max (init (Shape.Idx.first hu)) (fun k => x (ix3 p q k)) := by
  refine (Host.reduce_eq_fold_single FloatOps.maximumf x init h' h hu (ix2 p q)).trans ?_
  have hf : (x ∘ h.lift (ix2 p q)) = fun k : Fin c => x (ix3 p q k) :=
    funext fun k => congrArg x (lift_last h p q k)
  exact congrArg (fun f => Finset.fold max (init (Shape.Idx.first hu)) f (Finset.univ : Finset (Fin c))) hf

/-- A sum along the last axis of an `[a, b, c]` array from an initial value, read at `(p, q)`: the initial value
    plus the sum of the `c` entries `(p, q, ·)`. -/
theorem hostSum_last {a b c : ℕ} (x : (⟨3, ![a, b, c]⟩ : Shape).Idx → EReal) (init : EReal)
    (h' : (⟨3, ![a, b, c]⟩ : Shape).ReducesTo [2] (⟨2, ![a, b]⟩ : Shape))
    (h : (⟨3, ![a, b, c]⟩ : Shape).Reduces [2] (⟨2, ![a, b]⟩ : Shape)) (p : Fin a) (q : Fin b) :
    Ideal.hostReduceAdd h' x init (ix2 p q) = init + ∑ k : Fin c, x (ix3 p q k) := by
  refine (Ideal.hostReduceAdd_single h' h x init (ix2 p q)).trans ?_
  exact congrArg (fun r => init + r) (Finset.sum_congr rfl fun k _ => congrArg x (lift_last h p q k))

/-- A conjunction along the last axis of an `[a, b, c, e]` array of bits from an initial bit, read at
    `(p, q, r)`: the fold over the `e` entries `(p, q, r, ·)`. -/
theorem hostAnd_last4 {a b c e : ℕ} {u : Shape} (x : (⟨4, ![a, b, c, e]⟩ : Shape).Idx → BitVec 1) (init : u.Idx → BitVec 1)
    (h' : (⟨4, ![a, b, c, e]⟩ : Shape).ReducesTo [3] (⟨3, ![a, b, c]⟩ : Shape))
    (h : (⟨4, ![a, b, c, e]⟩ : Shape).Reduces [3] (⟨3, ![a, b, c]⟩ : Shape)) (hu : 0 < u.numel) (p : Fin a) (q : Fin b)
    (r : Fin c) :
    Host.reduce (IntOp.andi (w := 1)) x init h' hu (ix3 p q r)
      = (Finset.univ : Finset (Fin e)).fold (IntOp.andi (w := 1)) (init (Shape.Idx.first hu)) (fun k => x (ix4 p q r k)) := by
  refine (Host.reduce_eq_fold_single (IntOp.andi (w := 1)) x init h' h hu (ix3 p q r)).trans ?_
  have hf : (x ∘ h.lift (ix3 p q r)) = fun k : Fin e => x (ix4 p q r k) :=
    funext fun k => congrArg x (lift_last4 h p q r k)
  exact congrArg (fun f => Finset.fold (IntOp.andi (w := 1)) (init (Shape.Idx.first hu)) f (Finset.univ : Finset (Fin e))) hf

/-! ### A unit axis appended, and an array laid along a new last axis -/

/-- An `[a, b]` array given a unit last axis reads, at `(p, q, u)`, the entry `(p, q)`. -/
theorem bcast_ab_ab1 {a b : ℕ} (x : (⟨2, ![a, b]⟩ : Shape).Idx → α)
    (h : (⟨2, ![a, b]⟩ : Shape).BroadcastsInDim ⟨3, ![a, b, 1]⟩ (![0, 1] : Fin 2 → Fin 3)) (p : Fin a) (q : Fin b)
    (u : Fin 1) : broadcastInDim ⟨3, ![a, b, 1]⟩ ![0, 1] h x (ix3 p q u) = x (ix2 p q) := by
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An `[a, b, 1]` array spread over `[a, b, c]` reads, at `(p, q, k)`, the entry `(p, q, 0)`. -/
theorem bcast_ab1_abc {a b c : ℕ} (v : (⟨3, ![a, b, 1]⟩ : Shape).Idx → α)
    (h : (⟨3, ![a, b, 1]⟩ : Shape).BroadcastsInDim ⟨3, ![a, b, c]⟩ (![0, 1, 2] : Fin 3 → Fin 3)) (p : Fin a) (q : Fin b)
    (k : Fin c) : broadcastInDim ⟨3, ![a, b, c]⟩ ![0, 1, 2] h v (ix3 p q k) = v (ix3 p q (0 : Fin 1)) := by
  refine broadcastInDim_apply _ h v (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ### Casts that add or remove unit axes -/

/-- An `[a, b, 1]` array cast to `[a, b]` reads, at `(p, q)`, the entry `(p, q, 0)`. -/
theorem cast_ab1_ab {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    omega)

/-- An `[a, b, 1]` array cast to `[a, b, 1, 1]` reads, at `(p, q, u, v)`, the entry `(p, q, 0)`. -/
theorem cast_ab1_ab11 {a b : ℕ} (x : (⟨3, ![a, b, 1]⟩ : Shape).Idx → α)
    (h : (⟨3, ![a, b, 1]⟩ : Shape).ShapeCasts ⟨4, ![a, b, 1, 1]⟩) (p : Fin a) (q : Fin b) (u v : Fin 1) :
    shapeCast ⟨4, ![a, b, 1, 1]⟩ x h (ix4 p q u v) = x (ix3 p q (0 : Fin 1)) :=
  shapeCast_apply x h _ _ (by
    have hu : u.val = 0 := by omega
    have hv : v.val = 0 := by omega
    rw [Shape.rowMajor_val_four, Shape.rowMajor_val_three]
    show (p.val * b + q.val) * 1 + 0 = ((p.val * b + q.val) * 1 + u.val) * 1 + v.val
    omega)

/-! ### Elementwise operations and constants read at an entry -/

/-- A constant spread over any shape reads its value everywhere. -/
theorem bcast_constant {s t : Shape} {φ : FTy} (dims : Fin s.rank → Fin t.rank) (h : s.BroadcastsInDim t dims)
    (w : BitVec φ.bits) (j : t.Idx) : broadcastInDim t dims h (constant (F := Ideal) s φ w) j = Ideal.ofBits φ w := rfl

/-- A constant word spread over any shape reads the word everywhere. -/
theorem bcast_constantI {s t : Shape} {n : ℕ} (dims : Fin s.rank → Fin t.rank) (h : s.BroadcastsInDim t dims)
    (c : BitVec n) (j : t.Idx) : broadcastInDim t dims h (constantI s n c) j = c := rfl

/-- The same through two spreadings. -/
theorem bcast_bcast_constantI {s t r : Shape} {n : ℕ} (dims : Fin s.rank → Fin t.rank) (h : s.BroadcastsInDim t dims)
    (dims' : Fin t.rank → Fin r.rank) (h' : t.BroadcastsInDim r dims') (c : BitVec n) (j : r.Idx) :
    broadcastInDim r dims' h' (broadcastInDim t dims h (constantI s n c)) j = c := rfl

theorem cmpi_apply {s : Shape} {n : ℕ} (p : CmpIPredicate) (x y : IVec s n) (i : s.Idx) :
    cmpi p x y i = IntOp.cmpi p (x i) (y i) := rfl
theorem addi_apply {s : Shape} {n : ℕ} (x y : IVec s n) (i : s.Idx) : addi x y i = IntOp.addi (x i) (y i) := rfl
theorem andi_apply {s : Shape} {n : ℕ} (x y : IVec s n) (i : s.Idx) : andi x y i = IntOp.andi (x i) (y i) := rfl
theorem constantI_apply {s : Shape} {n : ℕ} (c : BitVec n) (i : s.Idx) : constantI s n c i = c := rfl
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl
theorem hostNegf_apply {s : Shape} {φ : FTy} (x : FVec Ideal s φ) (i : s.Idx) : Host.negf x i = -(x i) := rfl

/-! ### The reference read at one entry -/

/-- the largest logit of position (b,t), as the reference computes it -/
def refMax (x0 : (⟨S64x32x32000, .f32⟩ : BufTy).Contents (Elt Ideal)) (b : Fin 64) (t : Fin 32) : EReal :=
  max (Ideal.ofBits .f32 0xFF800000#32)
    ((Finset.univ : Finset (Fin 32000)).fold max (Ideal.ofBits .f32 0xFF800000#32) (fun k => x0 (ix3 b t k)))

/-- the sum of the exponentials of the shifted logits of position (b,t), as the reference computes it -/
def refSum (x0 : (⟨S64x32x32000, .f32⟩ : BufTy).Contents (Elt Ideal)) (b : Fin 64) (t : Fin 32) : EReal :=
  Ideal.ofBits .f32 0x00000000#32 + ∑ k : Fin 32000, Ideal.exp (x0 (ix3 b t k) - refMax x0 b t)

/-- (1) the largest logit of a position -/
theorem rowMax_apply (x0 : (⟨S64x32x32000, .f32⟩ : BufTy).Contents (Elt Ideal)) (b : Fin 64) (t : Fin 32) :
    rowMax x0 (ix2 b t) = refMax x0 b t := by
  unfold rowMax refMax
  rw [maximumf_apply, bcast_constant,
    hostMax_last x0 _ reducesTo_S64x32x32000_S64x32_d2 (by decide) h_S_ b t, constant_apply]

/-- (2) a logit less the largest of its position -/
theorem shifted_apply (x0 : (⟨S64x32x32000, .f32⟩ : BufTy).Contents (Elt Ideal)) (b : Fin 64) (t : Fin 32)
    (k : Fin 32000) : shifted x0 (ix3 b t k) = x0 (ix3 b t k) - refMax x0 b t := by
  unfold shifted shiftBy
  rw [subf_apply, bcast_ab1_abc _ bcast_S64x32x1_S64x32x32000_0_1_2 b t k,
    bcast_ab_ab1 _ bcast_S64x32_S64x32x1_0_1 b t 0, rowMax_apply]

/-- (3) the sum of exponentials of a position -/
theorem expSumOf_apply (x0 : (⟨S64x32x32000, .f32⟩ : BufTy).Contents (Elt Ideal)) (b : Fin 64) (t : Fin 32) :
    expSumOf (shifted x0) (ix2 b t) = refSum x0 b t := by
  unfold expSumOf Host.reduceAdd refSum
  rw [Ideal.hostReduceAdd_def, hostSum_last _ _ reducesTo_S64x32x32000_S64x32_d2 (by decide) b t, constant_apply]
  refine congrArg (fun r => Ideal.ofBits .f32 0x00000000#32 + r) (Finset.sum_congr rfl fun k _ => ?_)
  rw [hostExp_apply, shifted_apply]

/-- (4) the log-softmax at an entry -/
theorem logSoftmax_apply (x0 : (⟨S64x32x32000, .f32⟩ : BufTy).Contents (Elt Ideal)) (b : Fin 64) (t : Fin 32)
    (k : Fin 32000) :
    logSoftmax x0 (ix3 b t k) = (x0 (ix3 b t k) - refMax x0 b t) - Ideal.log (refSum x0 b t) := by
  unfold logSoftmax lessLog
  rw [subf_apply, shifted_apply, bcast_ab1_abc _ bcast_S64x32x1_S64x32x32000_0_1_2 b t k, hostLog_apply,
    bcast_ab_ab1 _ bcast_S64x32_S64x32x1_0_1 b t 0, expSumOf_apply]

/-- (5) the label with its unit axis, -/
theorem labels3_apply (x1 : (⟨S64x32, .i32⟩ : BufTy).Contents (Elt Ideal)) (b : Fin 64) (t : Fin 32) (u : Fin 1) :
    labels3 x1 (ix3 b t u) = x1 (ix2 b t) := by
  unfold labels3
  exact bcast_ab_ab1 x1 bcast_S64x32_S64x32x1_0_1 b t u

/-- wrapped, -/
theorem wrapped_apply (x1 : (⟨S64x32, .i32⟩ : BufTy).Contents (Elt Ideal)) (b : Fin 64) (t : Fin 32) (u : Fin 1) :
    wrapped (labels3 x1) (ix3 b t u) = Cert.Label.wrap (x1 (ix2 b t)) := by
  unfold wrapped
  rw [select_apply, cmpi_apply, addi_apply, bcast_constantI, bcast_constantI, labels3_apply]
  rfl

/-- and as a start index -/
theorem starts_apply (x1 : (⟨S64x32, .i32⟩ : BufTy).Contents (Elt Ideal)) (b : Fin 64) (t : Fin 32) (u v : Fin 1) :
    starts (labels3 x1) (ix4 b t u v) = Cert.Label.wrap (x1 (ix2 b t)) := by
  unfold starts
  rw [cast_ab1_ab11 _ shapeCasts_S64x32x1_S64x32x1x1 b t u v, wrapped_apply]

/-- (6) whether the label lies inside the axis -/
theorem inside_apply (x1 : (⟨S64x32, .i32⟩ : BufTy).Contents (Elt Ideal)) (b : Fin 64) (t : Fin 32) (u : Fin 1) :
    inside (labels3 x1) (ix3 b t u) = Cert.Label.inside (x1 (ix2 b t)) := by
  unfold inside
  rw [hostAnd_last4 _ _ reducesTo_S64x32x1x1_S64x32x1_d3 (by decide) h_S_ b t u, constantI_apply]
  unfold Cert.Label.inside
  refine congrArg (fun f => Finset.fold (IntOp.andi (w := 1)) 1#1 f (Finset.univ : Finset (Fin 1))) (funext fun k => ?_)
  rw [andi_apply, cmpi_apply, cmpi_apply, bcast_constantI, bcast_bcast_constantI, starts_apply]

/-! ### The gather -/

theorem GD_batch0 : (0 : Fin S64x32x32000.rank) ∈ gather_S64x32x32000_S64x32x1x1_S64x32x1_n_2_01_01_2_3_111.operandBatchingDims := by decide
theorem GD_batch1 : (1 : Fin S64x32x32000.rank) ∈ gather_S64x32x32000_S64x32x1x1_S64x32x1_n_2_01_01_2_3_111.operandBatchingDims := by decide
theorem GD_batch2 : (2 : Fin S64x32x32000.rank) ∉ gather_S64x32x32000_S64x32x1x1_S64x32x1_n_2_01_01_2_3_111.operandBatchingDims := by decide
theorem GD_collapsed2 : (2 : Fin S64x32x32000.rank) ∈ gather_S64x32x32000_S64x32x1x1_S64x32x1_n_2_01_01_2_3_111.collapsedSliceDims := by decide
theorem GD_start2 : (2 : Fin S64x32x32000.rank) ∈ gather_S64x32x32000_S64x32x1x1_S64x32x1_n_2_01_01_2_3_111.startIndexMap := by decide

/-- (7) the gather: position (b, t) reads its own row at the start index, taken signed and clamped into the axis -/
theorem gather_apply (lp : (⟨S64x32x32000, .f32⟩ : BufTy).Contents (Elt Ideal))
    (idx : (⟨S64x32x1x1, .i32⟩ : BufTy).Contents (Elt Ideal)) (b : Fin 64) (t : Fin 32) (u : Fin 1) :
    Host.gather gather_S64x32x32000_S64x32x1x1_S64x32x1_n_2_01_01_2_3_111 lp idx (ix3 b t u)
      = lp (ix3 b t (⟨min (idx (ix4 b t u (0 : Fin 1))).toInt.toNat 31999, by omega⟩ : Fin 32000)) := by
  unfold Host.gather
  refine congrArg lp (funext fun a => Fin.ext ?_)
  match a with
  | ⟨0, _⟩ =>
    show gather_S64x32x32000_S64x32x1x1_S64x32x1_n_2_01_01_2_3_111.start (ix3 b t u) idx (0 : Fin S64x32x32000.rank) + gather_S64x32x32000_S64x32x1x1_S64x32x1_n_2_01_01_2_3_111.batchCoord (ix3 b t u) (0 : Fin S64x32x32000.rank) + gather_S64x32x32000_S64x32x1x1_S64x32x1_n_2_01_01_2_3_111.offCoord (ix3 b t u) (0 : Fin S64x32x32000.rank) = b.val
    rw [GatherDims.start_batching _ _ _ _ GD_batch0,
      GatherDims.offCoord_eq_zero _ _ _ (fun h => ((GatherDims.mem_sKept _ _).mp h).2 GD_batch0),
      Nat.zero_add, Nat.add_zero]
    unfold GatherDims.batchCoord
    rw [dif_pos GD_batch0]
    rfl
  | ⟨1, _⟩ =>
    show gather_S64x32x32000_S64x32x1x1_S64x32x1_n_2_01_01_2_3_111.start (ix3 b t u) idx (1 : Fin S64x32x32000.rank) + gather_S64x32x32000_S64x32x1x1_S64x32x1_n_2_01_01_2_3_111.batchCoord (ix3 b t u) (1 : Fin S64x32x32000.rank) + gather_S64x32x32000_S64x32x1x1_S64x32x1_n_2_01_01_2_3_111.offCoord (ix3 b t u) (1 : Fin S64x32x32000.rank) = t.val
    rw [GatherDims.start_batching _ _ _ _ GD_batch1,
      GatherDims.offCoord_eq_zero _ _ _ (fun h => ((GatherDims.mem_sKept _ _).mp h).2 GD_batch1),
      Nat.zero_add, Nat.add_zero]
    unfold GatherDims.batchCoord
    rw [dif_pos GD_batch1]
    rfl
  | ⟨2, _⟩ =>
    show gather_S64x32x32000_S64x32x1x1_S64x32x1_n_2_01_01_2_3_111.start (ix3 b t u) idx (2 : Fin S64x32x32000.rank) + gather_S64x32x32000_S64x32x1x1_S64x32x1_n_2_01_01_2_3_111.batchCoord (ix3 b t u) (2 : Fin S64x32x32000.rank) + gather_S64x32x32000_S64x32x1x1_S64x32x1_n_2_01_01_2_3_111.offCoord (ix3 b t u) (2 : Fin S64x32x32000.rank)
      = min (idx (ix4 b t u (0 : Fin 1))).toInt.toNat 31999
    rw [GatherDims.batchCoord_eq_zero _ _ _ GD_batch2,
      GatherDims.offCoord_eq_zero _ _ _ (fun h => ((GatherDims.mem_sKept _ _).mp h).1 GD_collapsed2)]
    unfold GatherDims.start
    rw [dif_pos GD_start2]
    have hsi : gather_S64x32x32000_S64x32x1x1_S64x32x1_n_2_01_01_2_3_111.siIdx (ix3 b t u)
        ⟨List.idxOf (2 : Fin S64x32x32000.rank) gather_S64x32x32000_S64x32x1x1_S64x32x1_n_2_01_01_2_3_111.startIndexMap, List.idxOf_lt_length_iff.2 GD_start2⟩
          = ix4 b t u (0 : Fin 1) := by
      funext c; refine Fin.ext ?_
      match c with
      | ⟨0, _⟩ => rfl
      | ⟨1, _⟩ => rfl
      | ⟨2, _⟩ => rfl
      | ⟨3, _⟩ => rfl
    rw [hsi]
    rfl

/-- (8) the pick at a position -/
theorem picked_apply (lp : (⟨S64x32x32000, .f32⟩ : BufTy).Contents (Elt Ideal))
    (x1 : (⟨S64x32, .i32⟩ : BufTy).Contents (Elt Ideal)) (b : Fin 64) (t : Fin 32) (u : Fin 1) :
    picked lp (labels3 x1) (ix3 b t u)
      = Scalar.select (Cert.Label.inside (x1 (ix2 b t))) (lp (ix3 b t (Cert.Label.col (x1 (ix2 b t)))))
          (Ideal.ofBits .f32 0x7FC00000#32) := by
  unfold picked
  rw [select_apply, inside_apply, bcast_constant, gather_apply]
  have hc : (⟨min (starts (labels3 x1) (ix4 b t u (0 : Fin 1))).toInt.toNat 31999, by omega⟩ : Fin 32000)
      = Cert.Label.col (x1 (ix2 b t)) :=
    Fin.ext (by
      show min (starts (labels3 x1) (ix4 b t u (0 : Fin 1))).toInt.toNat 31999
        = min (Cert.Label.wrap (x1 (ix2 b t))).toInt.toNat 31999
      rw [starts_apply])
  rw [hc]

/-- The operand of the reference's final sum, read at position (b, t). -/
theorem entry (x0 : (⟨S64x32x32000, .f32⟩ : BufTy).Contents (Elt Ideal)) (x1 : (⟨S64x32, .i32⟩ : BufTy).Contents (Elt Ideal))
    (x2 : (⟨S64x32, .f32⟩ : BufTy).Contents (Elt Ideal)) (b : Fin 64) (t : Fin 32) :
    mulf (Host.negf (shapeCast _ (picked (logSoftmax x0) (labels3 x1)) shapeCasts_S64x32x1_S64x32)) x2 (ix2 b t)
      = -(Scalar.select (Cert.Label.inside (x1 (ix2 b t)))
            ((x0 (ix3 b t (Cert.Label.col (x1 (ix2 b t)))) - refMax x0 b t) - Ideal.log (refSum x0 b t))
            (Ideal.ofBits .f32 0x7FC00000#32)) * x2 (ix2 b t) := by
  rw [mulf_apply, hostNegf_apply, cast_ab1_ab _ shapeCasts_S64x32x1_S64x32 b t, picked_apply, logSoftmax_apply]

end Cert.ReferenceIdeal.Entry

end
-- ==== Proof.LibBlockSum.lean ====
/-
  A sum over a * b consecutive positions taken block by block.

  The positions 0 .. a*b - 1 fall into a blocks of b consecutive ones: position j lies in block j / b at place j % b,
  and block s holds the positions b*s, b*s + 1, .., b*s + b - 1. In a commutative monoid the sum over all positions is
  therefore the sum over the blocks of each block's own sum. Nothing about the summands is used: the law is the
  regrouping of a finite sum, so it holds on the extended reals with their infinities as well.
-/
import Mathlib.Algebra.BigOperators.Fin
import Mathlib.Logic.Equiv.Fin.Basic
import Mathlib.Data.Fintype.BigOperators

open scoped BigOperators

namespace Cert.LibBlockSum

/-- Place jj of block s is a position below a * b. -/
theorem pos_lt {a b : ℕ} (s : Fin a) (jj : Fin b) : b * s.val + jj.val < a * b := by
  have h1 : s.val + 1 ≤ a := s.isLt
  have h2 : jj.val < b := jj.isLt
  calc b * s.val + jj.val < b * s.val + b := by omega
    _ = b * (s.val + 1) := by rw [Nat.mul_add, Nat.mul_one]
    _ ≤ b * a := Nat.mul_le_mul_left b h1
    _ = a * b := Nat.mul_comm b a

/-- The sum over a * b positions is the sum over the a blocks of the sum over each block's b places. -/
theorem sum_blocks {β : Type*} [AddCommMonoid β] (a b : ℕ) (g : Fin (a * b) → β) :
    ∑ j : Fin (a * b), g j = ∑ s : Fin a, ∑ jj : Fin b, g ⟨b * s.val + jj.val, pos_lt s jj⟩ := by
  rw [← Equiv.sum_comp finProdFinEquiv g, Fintype.sum_prod_type]
  refine Finset.sum_congr rfl fun s _ => Finset.sum_congr rfl fun jj _ => congrArg g (Fin.ext ?_)
  show jj.val + b * s.val = b * s.val + jj.val
  exact Nat.add_comm _ _

/-- The same with the blocks counted by naturals below a, as a fold over a run of points produces them: the summand
    of a block number that is out of range is never used. -/
theorem sum_blocks_range {β : Type*} [AddCommMonoid β] (a b : ℕ) (g : Fin (a * b) → β) (f : ℕ → β)
    (hf : ∀ s : Fin a, f s.val = ∑ jj : Fin b, g ⟨b * s.val + jj.val, pos_lt s jj⟩) :
    ∑ s ∈ Finset.range a, f s = ∑ j : Fin (a * b), g j := by
  rw [sum_blocks a b g, Finset.sum_range]
  exact Finset.sum_congr rfl fun s _ => hf s

end Cert.LibBlockSum
-- ==== Proof.Bridge.lean ====
/-
  The two programs compute the same number.

  Row r = 32 b + t of the kernel's result array and entry (b, t) of the reference's last sum are the same extended
  real: with the position's 32000 logits real numbers y, the kernel's online recurrence ends at (M, S) with
  M = max y and S = Σ exp (y - M), the reference computes the same M and S in one pass, and
  ((M + log S) - g) * mask = (-((g - M) - log S)) * mask for the picked logit g — also where the label lies outside
  the axis and g is the junk value -inf, both sides then being +inf * mask.  The kernel's sum over 2048 rows is the
  reference's sum over 64 x 32 positions regrouped, and both are divided by 64.
-/
import proofs.«176176_j65601330479522_2_alg».proof.Proof.KernelOut
import proofs.«176176_j65601330479522_2_alg».proof.Proof.KernelRows
import proofs.«176176_j65601330479522_2_alg».proof.Proof.RefLine
import proofs.«176176_j65601330479522_2_alg».proof.Proof.RefRead
import proofs.«176176_j65601330479522_2_alg».proof.Proof.LibOnlineLse
import proofs.«176176_j65601330479522_2_alg».proof.Proof.LibBlockSum
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.Bridge

open Cert.KernelIdeal.Crit Cert.KernelIdeal.Rows

variable (m : (ℓ : Loc Cert.KernelIdeal.nD Cert.KernelIdeal.τ Cert.KernelIdeal.sig) → Buf (Elt Ideal) ℓ)

/-- The word of a quiet NaN denotes the junk value, the bottom extended real. -/
theorem ofBits_nan : Ideal.ofBits .f32 0x7FC00000#32 = (⊥ : EReal) := by
  simp [Ideal.ofBits, Ideal.ieee]

/-- Where the arguments' logits are real numbers, so are the logits by rows. -/
theorem rows_real (c : Dev Cert.KernelIdeal.nD)
    (h : ∀ i, ∃ x : ℝ, m ((c : Thread Cert.KernelIdeal.nD Cert.KernelIdeal.τ).loc Cert.KernelIdeal.main_arg0) i = (x : EReal)) :
    ∀ i, ∃ x : ℝ, Cert.KernelIdeal.Gen.V m c Cert.KernelIdeal.main_v0 i = (x : EReal) := by
  intro i
  obtain ⟨r, q, rfl⟩ : ∃ (r : Fin 2048) (q : Fin 32000), i = ix2 r q := ⟨i 0, i 1, eq_ix2 i⟩
  have hr : r.val = 32 * (r.val / 32) + r.val % 32 := by omega
  rw [logits_entry m c r q ⟨r.val / 32, by have := r.isLt; omega⟩ ⟨r.val % 32, by omega⟩ hr]
  exact h _

/-- ROW BY ROW: the kernel's result of row 32 b + t is the reference's summand of position (b, t). -/
theorem row_eq (c : Dev Cert.KernelIdeal.nD)
    (h : ∀ i, ∃ x : ℝ, m ((c : Thread Cert.KernelIdeal.nD Cert.KernelIdeal.τ).loc Cert.KernelIdeal.main_arg0) i = (x : EReal))
    (b : Fin 64) (t : Fin 32) (r : Fin 2048) (hr : r.val = 32 * b.val + t.val) :
    rowResult m c (ix2 r (0 : Fin 1))
      = mulf (Host.negf (shapeCast _ (Cert.ReferenceIdeal.Line.picked
            (Cert.ReferenceIdeal.Line.logSoftmax (m ((c : Thread Cert.KernelIdeal.nD Cert.KernelIdeal.τ).loc Cert.KernelIdeal.main_arg0)))
            (Cert.ReferenceIdeal.Line.labels3 (m ((c : Thread Cert.KernelIdeal.nD Cert.KernelIdeal.τ).loc Cert.KernelIdeal.main_arg1))))
          Cert.ReferenceIdeal.Gen.shapeCasts_S64x32x1_S64x32))
          (m ((c : Thread Cert.KernelIdeal.nD Cert.KernelIdeal.τ).loc Cert.KernelIdeal.main_arg2)) (ix2 b t) := by
  rw [Cert.ReferenceIdeal.Entry.entry]
  unfold rowResult
  rw [picks_entry m c r 0 b t hr, masks_entry m c r 0 b t hr, logits_entry m c r _ b t hr]
  have hy : ∀ k : Fin 32000, m ((c : Thread Cert.KernelIdeal.nD Cert.KernelIdeal.τ).loc Cert.KernelIdeal.main_arg0) (ix3 b t k)
      = ((rowReal m c r.val k.val : ℝ) : EReal) :=
    fun k => (logits_entry m c r k b t hr).symm.trans (row_entry m c (rows_real m c h) r k)
  have hM : Cert.ReferenceIdeal.Entry.refMax (m ((c : Thread Cert.KernelIdeal.nD Cert.KernelIdeal.τ).loc Cert.KernelIdeal.main_arg0)) b t
      = ((Cert.Lse.Mr (rowReal m c r.val) 32000 : ℝ) : EReal) := by
    unfold Cert.ReferenceIdeal.Entry.refMax
    simp only [hy]
    rw [ofBits_neg_inf, Cert.Lse.fold_max_eq (rowReal m c r.val) (by norm_num : 0 < 32000)]
    exact max_eq_right bot_le
  have hS : Cert.ReferenceIdeal.Entry.refSum (m ((c : Thread Cert.KernelIdeal.nD Cert.KernelIdeal.τ).loc Cert.KernelIdeal.main_arg0)) b t
      = ((Cert.Lse.Sr (rowReal m c r.val) 32000 : ℝ) : EReal) := by
    unfold Cert.ReferenceIdeal.Entry.refSum
    rw [hM]
    simp only [hy]
    rw [Ideal.ofBits_zero_f32, zero_add, Cert.Lse.sum_exp_eq (rowReal m c r.val) (by norm_num : 0 < 32000)]
  have hK := Cert.Lse.run_value (C := 6400) (by norm_num) (rowReal m c r.val) (n := 5) (by norm_num)
  rw [show (6400 * 5 : ℕ) = 32000 from rfl] at hK
  show ((((Cert.Lse.run 6400 (rowReal m c r.val) 5).1 + Ideal.log (Cert.Lse.run 6400 (rowReal m c r.val) 5).2)) - _) * _ = _
  rw [hK, hM, hS, Cert.Lse.log_Sr (rowReal m c r.val) (by norm_num : 0 < 32000), hy, EReal.coe_add]
  by_cases hb : Cert.Label.inside (m ((c : Thread Cert.KernelIdeal.nD Cert.KernelIdeal.τ).loc Cert.KernelIdeal.main_arg1) (ix2 b t)) = 1#1
  · rw [hb, select_one, select_one, Cert.Lse.nll_eq]
  · rw [eq_zero_of_ne_one hb, select_zero, select_zero]
    show (_ - Ideal.ofBits .f32 0x7FC00000#32) * _ = -(Ideal.ofBits .f32 0x7FC00000#32) * _
    rw [ofBits_nan, Cert.Lse.nll_bot]

/-- THE SUMS: the 2048 row results add up to the reference's sum over the 64 x 32 positions. -/
theorem total_eq (c : Dev Cert.KernelIdeal.nD)
    (h : ∀ i, ∃ x : ℝ, m ((c : Thread Cert.KernelIdeal.nD Cert.KernelIdeal.τ).loc Cert.KernelIdeal.main_arg0) i = (x : EReal)) :
    Host.reduceAdd (F := Ideal) (rowResult m c) (constant Cert.KernelIdeal.S_ .f32 0x00000000#32) Cert.KernelIdeal.Gen.reducesTo_S2048x1_S_d0_1 Cert.KernelIdeal.Gen.h_S_
      = Cert.ReferenceIdeal.Line.total (Cert.ReferenceIdeal.Line.picked
            (Cert.ReferenceIdeal.Line.logSoftmax (m ((c : Thread Cert.KernelIdeal.nD Cert.KernelIdeal.τ).loc Cert.KernelIdeal.main_arg0)))
            (Cert.ReferenceIdeal.Line.labels3 (m ((c : Thread Cert.KernelIdeal.nD Cert.KernelIdeal.τ).loc Cert.KernelIdeal.main_arg1))))
          (m ((c : Thread Cert.KernelIdeal.nD Cert.KernelIdeal.τ).loc Cert.KernelIdeal.main_arg2)) := by
  unfold Cert.ReferenceIdeal.Line.total
  funext i
  simp only [Host.reduceAdd, Ideal.hostReduceAdd_def]
  rw [Ideal.hostReduceAdd_total _ (fun b => b.elim0), Ideal.hostReduceAdd_total _ (fun b => b.elim0)]
  refine congrArg (_ + ·) ?_
  rw [sum_idx2, sum_idx2]
  simp only [Fin.sum_univ_one]
  refine (Cert.LibBlockSum.sum_blocks 64 32 (fun r : Fin (64 * 32) => rowResult m c (ix2 (n0 := 2048) r (0 : Fin 1)))).trans ?_
  refine Finset.sum_congr rfl fun b _ => Finset.sum_congr rfl fun t _ => ?_
  exact row_eq m c h b t ⟨32 * b.val + t.val, Cert.LibBlockSum.pos_lt b t⟩ rfl

/-- THE RESULTS: the kernel's program result is the reference's. -/
theorem result_eq (c : Dev Cert.KernelIdeal.nD)
    (h : ∀ i, ∃ x : ℝ, m ((c : Thread Cert.KernelIdeal.nD Cert.KernelIdeal.τ).loc Cert.KernelIdeal.main_arg0) i = (x : EReal)) :
    meanOf (rowResult m c)
      = Cert.ReferenceIdeal.Line.mean (Cert.ReferenceIdeal.Line.picked
            (Cert.ReferenceIdeal.Line.logSoftmax (m ((c : Thread Cert.KernelIdeal.nD Cert.KernelIdeal.τ).loc Cert.KernelIdeal.main_arg0)))
            (Cert.ReferenceIdeal.Line.labels3 (m ((c : Thread Cert.KernelIdeal.nD Cert.KernelIdeal.τ).loc Cert.KernelIdeal.main_arg1))))
          (m ((c : Thread Cert.KernelIdeal.nD Cert.KernelIdeal.τ).loc Cert.KernelIdeal.main_arg2)) := by
  unfold meanOf Cert.ReferenceIdeal.Line.mean
  rw [total_eq m c h]
  try rfl

end Cert.Bridge
end
-- ==== Proof.lean ====
/-
  The certificate's claim: the kernel runs and keeps its arguments, at the bit-exact and at the ideal instance; the
  reference does; the idealization rewrote nothing; and, from memories that agree on the arguments and hold finite
  logits, the idealized kernel and the idealized reference end with the same extended real.

  The kernel is a per-position masked cross-entropy: for each of 2048 positions the log-sum-exp of its 32000 logits,
  computed online over five chunks with a running maximum and a rescaled running sum, less the logit picked at the
  position's label, times the position's mask; the results are added up and divided by 64.  The reference takes the
  log-softmax of the logits in one pass, picks at the label, negates, masks, adds up and divides by 64.
  The proof reads the kernel's two accumulators point by point as the online recurrence (KernelChain), the result
  array and the host's sum after the region (KernelOut), the arrays the host lays out before it (KernelHost,
  KernelRows), the reference's operations stretch by stretch (RefLine) and at an entry (RefRead), shows the online
  recurrence equal to the one-pass computation over the reals (LibOnlineLse), and joins the two sides row by row and sum
  by sum (Bridge); the precondition gives the logits real (Finite).
-/
import proofs.«176176_j65601330479522_2_alg».proof.Defs
import proofs.«176176_j65601330479522_2_alg».proof.Proof.Gen.Kernel
import proofs.«176176_j65601330479522_2_alg».proof.Proof.Gen.Kernel.Skeleton
import proofs.«176176_j65601330479522_2_alg».proof.Proof.Gen.Kernel.Launch
import proofs.«176176_j65601330479522_2_alg».proof.Proof.Gen.Kernel.Points
import proofs.«176176_j65601330479522_2_alg».proof.Proof.Gen.Kernel.Frame
import proofs.«176176_j65601330479522_2_alg».proof.Proof.Gen.KernelIdeal
import proofs.«176176_j65601330479522_2_alg».proof.Proof.Gen.KernelIdeal.Skeleton
import proofs.«176176_j65601330479522_2_alg».proof.Proof.Gen.KernelIdeal.Launch
import proofs.«176176_j65601330479522_2_alg».proof.Proof.Gen.KernelIdeal.Points
import proofs.«176176_j65601330479522_2_alg».proof.Proof.Gen.KernelIdeal.Frame
import proofs.«176176_j65601330479522_2_alg».proof.Proof.Gen.ReferenceIdeal
import proofs.«176176_j65601330479522_2_alg».proof.Proof.Gen.Pre_finite_inputs
import proofs.«176176_j65601330479522_2_alg».proof.Proof.Finite
import proofs.«176176_j65601330479522_2_alg».proof.Proof.KernelOut
import proofs.«176176_j65601330479522_2_alg».proof.Proof.RefLine
import proofs.«176176_j65601330479522_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Line.run (F := Ideal) m ρ)

/-- The idealization rewrote no operation. -/
theorem preserves : Cert.preserves_Kernel_KernelIdeal := trivial

/-- From memories that agree on the arguments, with finite logits, both idealized programs end with the same number:
    the kernel's mean of the row results is the reference's mean of the masked negated picks. -/
theorem algebraic : Cert.algebraic_KernelIdeal_ReferenceIdeal := by
  intro m ρ m' ρ' hpre hagree
  have hreal : ∀ (c : Dev Cert.KernelIdeal.nD) i, ∃ x : ℝ,
      m ((c.tc : Thread Cert.KernelIdeal.nD Cert.KernelIdeal.τ).loc Cert.KernelIdeal.main_arg0) i = (x : EReal) :=
    fun c i => Cert.Finite.logits_real _ _ _ (hpre c) i
  refine ⟨fun c => Cert.KernelIdeal.Crit.meanOf (Cert.KernelIdeal.Crit.rowResult m c),
    Cert.KernelIdeal.Crit.run m ρ (fun c => Cert.Bridge.rows_real m c (hreal c)), ?_⟩
  refine (θ_run Cert.ReferenceIdeal.defs _ _).mono (fun _ h c => ⟨(h c).1.trans ?_, (h c).2⟩)
    (Cert.ReferenceIdeal.Line.run (F := Ideal) m' ρ')
  rw [(hagree c).1, (hagree c).2.1, (hagree c).2.2]
  exact (Cert.Bridge.result_eq m c (hreal c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
